-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x75x220x220 : Shape := ⟨4, ![2, 75, 220, 220]⟩
abbrev S5x5x3x16 : Shape := ⟨4, ![5, 5, 3, 16]⟩
abbrev S16 : Shape := ⟨1, ![16]⟩
abbrev S_ : Shape := ⟨0, ![]⟩

class Facts : Prop where
  bcast_S_S2x75x220x220 : S_.BroadcastsInDim S2x75x220x220 (![] : Fin 0 → Fin S2x75x220x220.rank)
  reducesTo_S2x75x220x220_S_d0_1_2_3 : S2x75x220x220.ReducesTo [0, 1, 2, 3] S_
  h_S_ : 0 < S_.numel
  bcast_S_S5x5x3x16 : S_.BroadcastsInDim S5x5x3x16 (![] : Fin 0 → Fin S5x5x3x16.rank)
  reducesTo_S5x5x3x16_S_d0_1_2_3 : S5x5x3x16.ReducesTo [0, 1, 2, 3] S_
  bcast_S_S16 : S_.BroadcastsInDim S16 (![] : Fin 0 → Fin S16.rank)
  reducesTo_S16_S_d0 : S16.ReducesTo [0] S_

variable [Facts]

def fn_part1 {F : FTy → Type} [FloatOps F] (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  main_v18

def fn {F : FTy → Type} [FloatOps F] (main_arg0 : FVec F S2x75x220x220 .f32) (main_arg1 : FVec F S5x5x3x16 .f32) (main_arg2 : FVec F S5x5x3x16 .f32) (main_arg3 : FVec F S16 .f32) : IVec S_ 1 :=
  let main_v0 : FVec F S2x75x220x220 .f32 := Host.absf main_arg0
  let main_cst : FVec F S_ .f32 := constant S_ .f32 0x7F800000#32
  let main_v1 : FVec F S2x75x220x220 .f32 := broadcastInDim S2x75x220x220 ![] bcast_S_S2x75x220x220 main_cst
  let main_v2 : IVec S2x75x220x220 1 := cmpf .olt main_v0 main_v1
  let main_c : IVec S_ 1 := constantI S_ 1 1#1
  let main_v3 : IVec S_ 1 := (fun x v => Host.reduce IntOp.andi x v reducesTo_S2x75x220x220_S_d0_1_2_3 h_S_) main_v2 main_c
  let main_v4 : FVec F S5x5x3x16 .f32 := Host.absf main_arg1
  let main_cst_0 : FVec F S_ .f32 := constant S_ .f32 0x7F800000#32
  let main_v5 : FVec F S5x5x3x16 .f32 := broadcastInDim S5x5x3x16 ![] bcast_S_S5x5x3x16 main_cst_0
  let main_v6 : IVec S5x5x3x16 1 := cmpf .olt main_v4 main_v5
  let main_c_1 : IVec S_ 1 := constantI S_ 1 1#1
  let main_v7 : IVec S_ 1 := (fun x v => Host.reduce IntOp.andi x v reducesTo_S5x5x3x16_S_d0_1_2_3 h_S_) main_v6 main_c_1
  let main_v8 : IVec S_ 1 := andi main_v3 main_v7
  let main_v9 : FVec F S5x5x3x16 .f32 := Host.absf main_arg2
  let main_cst_2 : FVec F S_ .f32 := constant S_ .f32 0x7F800000#32
  let main_v10 : FVec F S5x5x3x16 .f32 := broadcastInDim S5x5x3x16 ![] bcast_S_S5x5x3x16 main_cst_2
  let main_v11 : IVec S5x5x3x16 1 := cmpf .olt main_v9 main_v10
  let main_c_3 : IVec S_ 1 := constantI S_ 1 1#1
  let main_v12 : IVec S_ 1 := (fun x v => Host.reduce IntOp.andi x v reducesTo_S5x5x3x16_S_d0_1_2_3 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_v13 main_v16
-- ==== Kernel.lean ====
abbrev S2x75x220x220 : Shape := ⟨4, ![2, 75, 220, 220]⟩
abbrev S5x5x3x16 : Shape := ⟨4, ![5, 5, 3, 16]⟩
abbrev S16 : Shape := ⟨1, ![16]⟩
abbrev S2x75x48400 : Shape := ⟨3, ![2, 75, 48400]⟩
abbrev S75x16 : Shape := ⟨2, ![75, 16]⟩
abbrev S16x75 : Shape := ⟨2, ![16, 75]⟩
abbrev S2x16x48400 : Shape := ⟨3, ![2, 16, 48400]⟩
abbrev S1x75x4096 : Shape := ⟨3, ![1, 75, 4096]⟩
abbrev S1x16x4096 : Shape := ⟨3, ![1, 16, 4096]⟩
abbrev S75x4096 : Shape := ⟨2, ![75, 4096]⟩
abbrev S16x4096 : Shape := ⟨2, ![16, 4096]⟩
abbrev S16x1 : Shape := ⟨2, ![16, 1]⟩
abbrev S2x16x220x220 : Shape := ⟨4, ![2, 16, 220, 220]⟩

abbrev nBuf : Space → Nat
  | .hbm => 17
  | .vmem => 9
  | .smem => 0
  | _ => 0

abbrev bufTy : (tb : Table) → Fin (tcTables nBuf tb) → BufTy
  | .hbm, ⟨0, _⟩ => ⟨S2x75x220x220, .f32⟩
  | .hbm, ⟨1, _⟩ => ⟨S5x5x3x16, .f32⟩
  | .hbm, ⟨2, _⟩ => ⟨S5x5x3x16, .f32⟩
  | .hbm, ⟨3, _⟩ => ⟨S16, .f32⟩
  | .hbm, ⟨4, _⟩ => ⟨S2x75x48400, .f32⟩
  | .hbm, ⟨5, _⟩ => ⟨S75x16, .f32⟩
  | .hbm, ⟨6, _⟩ => ⟨S75x16, .f32⟩
  | .hbm, ⟨7, _⟩ => ⟨S75x16, .f32⟩
  | .hbm, ⟨8, _⟩ => ⟨S75x16, .f32⟩
  | .hbm, ⟨9, _⟩ => ⟨S75x16, .f32⟩
  | .hbm, ⟨10, _⟩ => ⟨S75x16, .f32⟩
  | .hbm, ⟨11, _⟩ => ⟨S16x75, .f32⟩
  | .hbm, ⟨12, _⟩ => ⟨S16x75, .f32⟩
  | .hbm, ⟨13, _⟩ => ⟨S16x75, .f32⟩
  | .hbm, ⟨14, _⟩ => ⟨S16x75, .f32⟩
  | .hbm, ⟨15, _⟩ => ⟨S2x16x48400, .f32⟩
  | .hbm, ⟨16, _⟩ => ⟨S2x16x220x220, .f32⟩
  | .local _ .vmem, ⟨0, _⟩ => ⟨S1x75x4096, .f32⟩
  | .local _ .vmem, ⟨1, _⟩ => ⟨S1x75x4096, .f32⟩
  | .local _ .vmem, ⟨2, _⟩ => ⟨S16x75, .f32⟩
  | .local _ .vmem, ⟨3, _⟩ => ⟨S16x75, .f32⟩
  | .local _ .vmem, ⟨4, _⟩ => ⟨S16x75, .f32⟩
  | .local _ .vmem, ⟨5, _⟩ => ⟨S16x75, .f32⟩
  | .local _ .vmem, ⟨6, _⟩ => ⟨S16, .f32⟩
  | .local _ .vmem, ⟨7, _⟩ => ⟨S1x16x4096, .f32⟩
  | .local _ .vmem, ⟨8, _⟩ => ⟨S1x16x4096, .f32⟩
  | _, _ => ⟨S2x75x220x220, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 12], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x75x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x75 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16x75 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x75 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x75 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x16x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S2x75x220x220_S2x75x48400 : S2x75x220x220.ShapeCasts S2x75x48400
  shapeCasts_S5x5x3x16_S75x16 : S5x5x3x16.ShapeCasts S75x16
  transposes_S75x16_S16x75_1_0 : S75x16.Transposes [1, 0] S16x75
  inb_S1x75x4096_S1x75x4096_0_0_0 : ∀ a, (![0, 0, 0] : Fin 3 → Nat) a + S1x75x4096.size a ≤ S1x75x4096.size a
  h_S1x75x4096 : 0 < S1x75x4096.numel
  shapeCasts_S1x75x4096_S75x4096 : S1x75x4096.ShapeCasts S75x4096
  inb_S16x75_S16x75_0_0 : ∀ a, (![0, 0] : Fin 2 → Nat) a + S16x75.size a ≤ S16x75.size a
  h_S16x75 : 0 < S16x75.numel
  shapeCasts_S16x75_S16x75 : S16x75.ShapeCasts S16x75
  inb_S16_S16_0 : ∀ a, (![0] : Fin 1 → Nat) a + S16.size a ≤ S16.size a
  h_S16 : 0 < S16.numel
  shapeCasts_S16_S16x1 : S16.ShapeCasts S16x1
  broadcasts_S16x1_S16x4096 : S16x1.Broadcasts S16x4096
  inb_S1x16x4096_S1x16x4096_0_0_0 : ∀ a, (![0, 0, 0] : Fin 3 → Nat) a + S1x16x4096.size a ≤ S1x16x4096.size a
  h_S1x16x4096 : 0 < S1x16x4096.numel
  shapeCasts_S1x16x4096_S16x4096 : S1x16x4096.ShapeCasts S16x4096
  shapeCasts_S16x4096_S1x16x4096 : S16x4096.ShapeCasts S1x16x4096
  shapeCasts_S2x16x48400_S2x16x220x220 : S2x16x48400.ShapeCasts S2x16x220x220
  dot_S16x75_S75x4096_S16x4096_1_0_0_1_n_n_wf : DotDims.WF S16x75 S75x4096 S16x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1x75x4096.size a < S2x75x48400.size a
  hwx0_0 : ∀ i : grid0.Coords, EltTy.bits .f32 = 32 ∨ (Rect.unit (s := S2x75x48400) (fun a => cc0_transform_0 i a * S1x75x4096.size a) (fun a => (Pipeline.Clip.of (cc0_transform_0 i a) (S1x75x4096.size a) (S2x75x48400.size a)).extent (S1x75x4096.size a)) fun a => Pipeline.Clip.inb (Pipeline.Clip.ok_of (hstart0_0 i a))).WholeWords (EltTy.packing .f32)
  hwxs0_0 : ∀ i : grid0.Coords, EltTy.bits .f32 = 32 ∨ (Rect.unit (s := S1x75x4096) (fun _ => 0) (fun a => (Pipeline.Clip.of (cc0_transform_0 i a) (S1x75x4096.size a) (S2x75x48400.size a)).extent (S1x75x4096.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x75.size a ≤ S16x75.size a
  hwx0_1 : ∀ i : grid0.Coords, EltTy.bits .f32 = 32 ∨ (Rect.block (s := S16x75) S16x75.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x75.size a ≤ S16x75.size a
  hwx0_2 : ∀ i : grid0.Coords, EltTy.bits .f32 = 32 ∨ (Rect.block (s := S16x75) S16x75.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x75.size a ≤ S16x75.size a
  hwx0_3 : ∀ i : grid0.Coords, EltTy.bits .f32 = 32 ∨ (Rect.block (s := S16x75) S16x75.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x75.size a ≤ S16x75.size a
  hwx0_4 : ∀ i : grid0.Coords, EltTy.bits .f32 = 32 ∨ (Rect.block (s := S16x75) S16x75.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16.size a ≤ S16.size a
  hwx0_5 : ∀ i : grid0.Coords, EltTy.bits .f32 = 32 ∨ (Rect.block (s := S16) S16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S1x16x4096.size a < S2x16x48400.size a
  hwx0_6 : ∀ i : grid0.Coords, EltTy.bits .f32 = 32 ∨ (Rect.unit (s := S2x16x48400) (fun a => cc0_transform_6 i a * S1x16x4096.size a) (fun a => (Pipeline.Clip.of (cc0_transform_6 i a) (S1x16x4096.size a) (S2x16x48400.size a)).extent (S1x16x4096.size a)) fun a => Pipeline.Clip.inb (Pipeline.Clip.ok_of (hstart0_6 i a))).WholeWords (EltTy.packing .f32)
  hwxs0_6 : ∀ i : grid0.Coords, EltTy.bits .f32 = 32 ∨ (Rect.unit (s := S1x16x4096) (fun _ => 0) (fun a => (Pipeline.Clip.of (cc0_transform_6 i a) (S1x16x4096.size a) (S2x16x48400.size a)).extent (S1x16x4096.size a)) fun a => (Nat.zero_add _).trans_le (Pipeline.Clip.extent_le (Pipeline.Clip.ok_of (hstart0_6 i a)))).WholeWords (EltTy.packing .f32)

variable [Facts₀]

def dot_S16x75_S75x4096_S16x4096_1_0_0_1_n_n : DotDims S16x75 S75x4096 S16x4096 where
  lhsContracting := [1]
  rhsContracting := [0]
  lhsNonContracting := [0]
  rhsNonContracting := [1]
  lhsBatch := []
  rhsBatch := []
  wf := dot_S16x75_S75x4096_S16x4096_1_0_0_1_n_n_wf

abbrev win0_0 : Pipeline.Window sig grid0 :=
  Pipeline.Window.ofSpecClip (Memref.whole main_v0) S1x75x4096.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v7) S16x75.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S16x75.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S16x75.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S16x75.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpecClip (Memref.whole main_v11) S1x16x4096.size cc0_transform_6 reads0_6 true false 2 stage0_6 sem0_6
    hrank0 hreads0_6 hstart0_6 nbuf0_6 (Memref.isWhole_whole _) hwx0_6 hwxs0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2x75x220x220 : Shape := ⟨4, ![2, 75, 220, 220]⟩
abbrev S5x5x3x16 : Shape := ⟨4, ![5, 5, 3, 16]⟩
abbrev S16 : Shape := ⟨1, ![16]⟩
abbrev S75x16 : Shape := ⟨2, ![75, 16]⟩
abbrev S2x75x1x220x220 : Shape := ⟨5, ![2, 75, 1, 220, 220]⟩
abbrev S1x75x16x1x1 : Shape := ⟨5, ![1, 75, 16, 1, 1]⟩
abbrev S2x75x16x220x220 : Shape := ⟨5, ![2, 75, 16, 220, 220]⟩
abbrev S_ : Shape := ⟨0, ![]⟩
abbrev S2x16x220x220 : Shape := ⟨4, ![2, 16, 220, 220]⟩
abbrev S2x1x16x220x220 : Shape := ⟨5, ![2, 1, 16, 220, 220]⟩
abbrev S1x16x1x1 : Shape := ⟨4, ![1, 16, 1, 1]⟩

abbrev nBuf : Space → Nat
  | .hbm => 61
  | .vmem => 0
  | .smem => 0
  | _ => 0

abbrev bufTy : (tb : Table) → Fin (tcTables nBuf tb) → BufTy
  | .hbm, ⟨0, _⟩ => ⟨S2x75x220x220, .f32⟩
  | .hbm, ⟨1, _⟩ => ⟨S5x5x3x16, .f32⟩
  | .hbm, ⟨2, _⟩ => ⟨S5x5x3x16, .f32⟩
  | .hbm, ⟨3, _⟩ => ⟨S16, .f32⟩
  | .hbm, ⟨4, _⟩ => ⟨S75x16, .f32⟩
  | .hbm, ⟨5, _⟩ => ⟨S75x16, .f32⟩
  | .hbm, ⟨6, _⟩ => ⟨S2x75x1x220x220, .f32⟩
  | .hbm, ⟨7, _⟩ => ⟨S1x75x16x1x1, .f32⟩
  | .hbm, ⟨8, _⟩ => ⟨S2x75x16x220x220, .f32⟩
  | .hbm, ⟨9, _⟩ => ⟨S2x75x16x220x220, .f32⟩
  | .hbm, ⟨10, _⟩ => ⟨S2x75x16x220x220, .f32⟩
  | .hbm, ⟨11, _⟩ => ⟨S_, .f32⟩
  | .hbm, ⟨12, _⟩ => ⟨S2x75x16x220x220, .f32⟩
  | .hbm, ⟨13, _⟩ => ⟨S2x75x16x220x220, .f32⟩
  | .hbm, ⟨14, _⟩ => ⟨S_, .f32⟩
  | .hbm, ⟨15, _⟩ => ⟨S2x16x220x220, .f32⟩
  | .hbm, ⟨16, _⟩ => ⟨S_, .f32⟩
  | .hbm, ⟨17, _⟩ => ⟨S2x16x220x220, .f32⟩
  | .hbm, ⟨18, _⟩ => ⟨S2x16x220x220, .f32⟩
  | .hbm, ⟨19, _⟩ => ⟨S2x1x16x220x220, .f32⟩
  | .hbm, ⟨20, _⟩ => ⟨S2x75x16x220x220, .f32⟩
  | .hbm, ⟨21, _⟩ => ⟨S2x75x16x220x220, .f32⟩
  | .hbm, ⟨22, _⟩ => ⟨S2x75x16x220x220, .f32⟩
  | .hbm, ⟨23, _⟩ => ⟨S_, .f32⟩
  | .hbm, ⟨24, _⟩ => ⟨S2x16x220x220, .f32⟩
  | .hbm, ⟨25, _⟩ => ⟨S2x1x16x220x220, .f32⟩
  | .hbm, ⟨26, _⟩ => ⟨S2x75x16x220x220, .f32⟩
  | .hbm, ⟨27, _⟩ => ⟨S2x75x16x220x220, .f32⟩
  | .hbm, ⟨28, _⟩ => ⟨S2x75x16x220x220, .f32⟩
  | .hbm, ⟨29, _⟩ => ⟨S_, .f32⟩
  | .hbm, ⟨30, _⟩ => ⟨S2x16x220x220, .f32⟩
  | .hbm, ⟨31, _⟩ => ⟨S2x75x220x220, .f32⟩
  | .hbm, ⟨32, _⟩ => ⟨S2x75x1x220x220, .f32⟩
  | .hbm, ⟨33, _⟩ => ⟨S1x75x16x1x1, .f32⟩
  | .hbm, ⟨34, _⟩ => ⟨S2x75x16x220x220, .f32⟩
  | .hbm, ⟨35, _⟩ => ⟨S2x75x16x220x220, .f32⟩
  | .hbm, ⟨36, _⟩ => ⟨S2x75x16x220x220, .f32⟩
  | .hbm, ⟨37, _⟩ => ⟨S_, .f32⟩
  | .hbm, ⟨38, _⟩ => ⟨S2x75x16x220x220, .f32⟩
  | .hbm, ⟨39, _⟩ => ⟨S2x75x16x220x220, .f32⟩
  | .hbm, ⟨40, _⟩ => ⟨S_, .f32⟩
  | .hbm, ⟨41, _⟩ => ⟨S2x16x220x220, .f32⟩
  | .hbm, ⟨42, _⟩ => ⟨S_, .f32⟩
  | .hbm, ⟨43, _⟩ => ⟨S2x16x220x220, .f32⟩
  | .hbm, ⟨44, _⟩ => ⟨S2x16x220x220, .f32⟩
  | .hbm, ⟨45, _⟩ => ⟨S2x1x16x220x220, .f32⟩
  | .hbm, ⟨46, _⟩ => ⟨S2x75x16x220x220, .f32⟩
  | .hbm, ⟨47, _⟩ => ⟨S2x75x16x220x220, .f32⟩
  | .hbm, ⟨48, _⟩ => ⟨S2x75x16x220x220, .f32⟩
  | .hbm, ⟨49, _⟩ => ⟨S_, .f32⟩
  | .hbm, ⟨50, _⟩ => ⟨S2x16x220x220, .f32⟩
  | .hbm, ⟨51, _⟩ => ⟨S2x1x16x220x220, .f32⟩
  | .hbm, ⟨52, _⟩ => ⟨S2x75x16x220x220, .f32⟩
  | .hbm, ⟨53, _⟩ => ⟨S2x75x16x220x220, .f32⟩
  | .hbm, ⟨54, _⟩ => ⟨S2x75x16x220x220, .f32⟩
  | .hbm, ⟨55, _⟩ => ⟨S_, .f32⟩
  | .hbm, ⟨56, _⟩ => ⟨S2x16x220x220, .f32⟩
  | .hbm, ⟨57, _⟩ => ⟨S2x16x220x220, .f32⟩
  | .hbm, ⟨58, _⟩ => ⟨S1x16x1x1, .f32⟩
  | .hbm, ⟨59, _⟩ => ⟨S2x16x220x220, .f32⟩
  | .hbm, ⟨60, _⟩ => ⟨S2x16x220x220, .f32⟩
  | _, _ => ⟨S2x75x220x220, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_8 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]

class Facts₀ : Prop where
  shapeCasts_S5x5x3x16_S75x16 : S5x5x3x16.ShapeCasts S75x16
  bcast_S2x75x220x220_S2x75x1x220x220_0_1_3_4 : S2x75x220x220.BroadcastsInDim S2x75x1x220x220 (![0, 1, 3, 4] : Fin 4 → Fin S2x75x1x220x220.rank)
  bcast_S75x16_S1x75x16x1x1_1_2 : S75x16.BroadcastsInDim S1x75x16x1x1 (![1, 2] : Fin 2 → Fin S1x75x16x1x1.rank)
  bcast_S2x75x1x220x220_S2x75x16x220x220_0_1_2_3_4 : S2x75x1x220x220.BroadcastsInDim S2x75x16x220x220 (![0, 1, 2, 3, 4] : Fin 5 → Fin S2x75x16x220x220.rank)
  bcast_S1x75x16x1x1_S2x75x16x220x220_0_1_2_3_4 : S1x75x16x1x1.BroadcastsInDim S2x75x16x220x220 (![0, 1, 2, 3, 4] : Fin 5 → Fin S2x75x16x220x220.rank)
  bcast_S_S2x75x16x220x220 : S_.BroadcastsInDim S2x75x16x220x220 (![] : Fin 0 → Fin S2x75x16x220x220.rank)
  reducesTo_S2x75x16x220x220_S2x16x220x220_d1 : S2x75x16x220x220.ReducesTo [1] S2x16x220x220
  h_S_ : 0 < S_.numel
  bcast_S_S2x16x220x220 : S_.BroadcastsInDim S2x16x220x220 (![] : Fin 0 → Fin S2x16x220x220.rank)
  bcast_S2x16x220x220_S2x1x16x220x220_0_2_3_4 : S2x16x220x220.BroadcastsInDim S2x1x16x220x220 (![0, 2, 3, 4] : Fin 4 → Fin S2x1x16x220x220.rank)
  bcast_S2x1x16x220x220_S2x75x16x220x220_0_1_2_3_4 : S2x1x16x220x220.BroadcastsInDim S2x75x16x220x220 (![0, 1, 2, 3, 4] : Fin 5 → Fin S2x75x16x220x220.rank)
  bcast_S16_S1x16x1x1_1 : S16.BroadcastsInDim S1x16x1x1 (![1] : Fin 1 → Fin S1x16x1x1.rank)
  bcast_S1x16x1x1_S2x16x220x220_0_1_2_3 : S1x16x1x1.BroadcastsInDim S2x16x220x220 (![0, 1, 2, 3] : Fin 4 → Fin S2x16x220x220.rank)

variable [Facts₀]

class Facts : Prop extends Facts₀ where

variable [Facts]
-- ==== Proof.BodyBits.lean ====
/-
  The kernel body's run on its staging buffers.

  At one grid point the body reads six buffers whole — a 1 × 75 × 4096 slab of x, the four 16 × 75 tables and the 16 biases —
  reads the result's buffer (a load whose value is never used) and overwrites that buffer whole with one value computed from
  the six: the two quotients of 75-term contractions plus the bias.  So after the body the six inputs' buffers hold what they
  held and the result's holds that value, whatever it held before.
-/
import proofs.«157082_j4037269258264_2_alg».proof.Proof.Gen.Kernel.Frame
import proofs.«157082_j4037269258264_2_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each is its whole buffer -/

abbrev rX : Rect S1x75x4096 := Rect.unit (s := S1x75x4096) ![0, 0, 0] S1x75x4096.size inb_S1x75x4096_S1x75x4096_0_0_0
abbrev rT : Rect S16x75 := Rect.unit (s := S16x75) ![0, 0] S16x75.size inb_S16x75_S16x75_0_0
abbrev rB : Rect S16 := Rect.unit (s := S16) ![0] S16.size inb_S16_S16_0
abbrev rO : Rect S1x16x4096 := Rect.unit (s := S1x16x4096) ![0, 0, 0] S1x16x4096.size inb_S1x16x4096_S1x16x4096_0_0_0

/-- The value the body stores, as a function of what the six input buffers hold. -/
def stored (x0 : Vec F S1x75x4096 .f32) (x1 x2 x3 x4 : Vec F S16x75 .f32) (x5 : Vec F S16 .f32) : FVec F S1x16x4096 .f32 :=
  k0_pay1 (k0_pay2 (View.ld x0 rX) (View.ld x1 rT) (View.ld x2 rT) (View.ld x3 rT) (View.ld x4 rT) (View.ld x5 rB))

/-- What the result's buffer holds after the body: its one store, which is the whole buffer. -/
def out6 (x0 : Vec F S1x75x4096 .f32) (x1 x2 x3 x4 : Vec F S16x75 .f32) (x5 : Vec F S16 .f32) : Vec F S1x16x4096 .f32 :=
  View.canon [⟨rO, stored x0 x1 x2 x3 x4 x5⟩]

/-- The one store covers the buffer. -/
theorem cover6 (p0 : Vec F S1x16x4096 .f32) (y : S1x16x4096.Idx) :
    ∃ pc ∈ ([⟨rO, p0⟩] : List (View.Piece (Elt F) S1x16x4096 .f32)), y ∈ pc.1.set :=
  View.cover_of_tiled [⟨rO, p0⟩] S1x16x4096.size (by rfl) y

set_option maxHeartbeats 1000000 in
/-- The body on whole staging buffers holding `x0 … x5` and, the result's, anything: it runs to the continuation with the
    six as they were and the result's buffer at `out6` of them. -/
theorem sound_kernel (c : Dev nD) (E : Set ℕ) (i : grid0.Coords)
    (arg2 : Memref sig .tc .vmem S1x75x4096 .f32) (harg2 : arg2.IsWhole) (arg3 : Memref sig .tc .vmem S16x75 .f32) (harg3 : arg3.IsWhole)
    (arg4 : Memref sig .tc .vmem S16x75 .f32) (harg4 : arg4.IsWhole) (arg5 : Memref sig .tc .vmem S16x75 .f32) (harg5 : arg5.IsWhole)
    (arg6 : Memref sig .tc .vmem S16x75 .f32) (harg6 : arg6.IsWhole) (arg7 : Memref sig .tc .vmem S16 .f32) (harg7 : arg7.IsWhole)
    (arg8 : Memref sig .tc .vmem S1x16x4096 .f32) (harg8 : arg8.IsWhole)
    (x0 : Vec F S1x75x4096 .f32) (x1 x2 x3 x4 : Vec F S16x75 .f32) (x5 : Vec F S16 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out6 x0 x1 x2 x3 x4 x5)) -∗ K ⟨⟩))
      ⊢ wp frame (wpE (defs₀ (F := F)) Variants.none c none) E
          (cc0__morph_kernel i arg2 harg2 arg3 harg3 arg4 harg4 arg5 harg5 arg6 harg6 arg7 harg7 arg8 harg8) K := by
  simp only [cc0__morph_kernel_eq_skeleton]; unfold cc0__morph_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover6 _)

end Cert.Kernel.Body

end
-- ==== Proof.FrameBits.lean ====
/-
  The word-level program runs to its end and leaves its four argument arrays as it found them.

  The program is eleven host operations, one gridded region of 24 points over seven windows, and one host reshape of the
  region's result.  Window 0 (a 1 × 75 × 4096 slab of x) and window 6 (the 1 × 16 × 4096 block of the result) overhang their
  arrays on the last block of the long axis; windows 1–5 (four 16 × 75 tables and the 16 biases) are whole arrays.  At each
  point the body reads its six input buffers and overwrites the result's buffer, so every input buffer holds after the body
  what it held before; what the result's buffer holds is a function of the words past the array's end in x's buffer, which
  nothing names, and the claim does not speak of the result: the result's window is carried at unnamed contents throughout.
  The first three arguments are never staged by the region and no host operation writes them; the fourth is the array of an
  input window, which no transfer writes.
-/
import proofs.«157082_j4037269258264_2_alg».proof.Defs
import proofs.«157082_j4037269258264_2_alg».proof.Proof.Gen.Kernel
import proofs.«157082_j4037269258264_2_alg».proof.Proof.Gen.Pre_finite_inputs
import proofs.«157082_j4037269258264_2_alg».proof.Proof.BodyBits

set_option maxRecDepth 16384

noncomputable section

namespace Cert.Kernel.Run

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The window whose contents are never named: the result's. -/
def forgets0 : Fin 7 → Bool := fun w => w.val == 6

/-- On core `c`: the arrays as the region finds them; after the body at point `t` the slab's buffer holds the slab's part
    inside the array (filled out past the array's end with a word nothing reads), each table's and the biases' buffer its
    array, and the result's buffer contents nothing names. -/
def dats (_ : Fin 1) (c : Dev nD) : Dat τ (Elt F) Unit ℕ (UR sig nD τ) ℕ cfg0 c where
  A w := V m c (Pipeline.arrRef spec0 w)
  after w t := match w with
    | ⟨0, _⟩ => (cfg0.win 0).fill (grid0.coords t) (fun _ => Classical.arbitrary _) (iblk m c 0 t)
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t
    = (cfg0.win 0).fill (grid0.coords t) (fun _ => Classical.arbitrary _) (iblk m c 0 t) := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- The slab's buffer is fetched at every point: it holds the slab's part inside the array, and past the array's end
    whatever the fetch left there. -/
theorem before0_0 (c : Dev nD) (t : Fin cfg0.N) (d) :
    (dats m 0 c).before 0 t d = (cfg0.win 0).fill (grid0.coords t) d (iblk m c 0 t) := by
  rw [(dats m 0 c).before_fetched 0 t (fetch0_0 t) d]
  unfold Dat.fetched Dat.blockOf iblk
  rw [A_eq]
/-- The tables' and the biases' buffers hold their arrays at every point. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

/-- What the body is handed at point `t`: the invariant, what the core owes, each input's buffer at what it then holds,
    the result's buffer at anything; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ X, owns (c : Thread nD τ) (st0_6 t) fullShare X))

/-- and what it hands back: the slab's buffer stated on the part inside the array only, the tables' and the biases' buffers
    exactly, the result's at anything. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (grid0.coords t) d ((cfg0.win 0).cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ X, owns (c : Thread nD τ) (st0_6 t) fullShare X))

/-- The body at any point: it reads the six input buffers and overwrites the result's, so the inputs' buffers come back as
    they were; the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, Window.cut_fill]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    ((cfg0.win 0).fill (grid0.coords t) d0 (iblk m c 0 t)) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexists d0; iexact H0
  isplitl [H1]; · iexact H1
  isplitl [H2]; · iexact H2
  isplitl [H3]; · iexact H3
  isplitl [H4]; · iexact H4
  isplitl [H5]; · iexact H5
  iexists _; iexact H6

/-- The library's body obligation at every point, the result's window carried at unnamed contents. -/
theorem body_obligation (c : Dev nD) :
    BodyObligationLoose (dats (F := F) m 0 c) (defs₀ (F := F)) Variants.none () Set.univ forgets0 := fun t => by
  rw [bigSep_W0, bigSep_W0]
  exact sound_body m c t

/-! ## The run and the frame -/

/-- The one buffer the host line after the region writes: the reshaped result. -/
def tailWrites : Finset (Ref sig .tc) := {main_v12}

theorem tail_writes : ∀ ops ∈ ([hostOps1] : List (List (HloOp τ sig (Elt F)))), ∀ op ∈ ops, ∀ b : Ref sig .tc,
    Proc.devRef .tc b ∈ op.writes → b ∈ tailWrites := by
  intro ops hops op hop b hb
  simp only [List.mem_cons, List.mem_nil_iff, or_false] at hops
  rcases hops with rfl
  simp only [hostOps1, List.mem_cons, List.mem_nil_iff, or_false] at hop
  rcases hop with rfl
  rw [StableHlo.reshape_writes, Finset.mem_singleton] at hb
  exact Finset.mem_singleton.mpr (Proc.devRef_injective _ hb)

-- the launch theorem's implicit arguments are found by unifying its conclusion with this one, which takes unfolding plain
-- definitions in a metavariable's type
set_option backward.isDefEq.respectTransparency.types false in
/-- From any memory with zero counters every weakly fair execution of the program terminates, and at the end every input
    window's array holds what it held when the region was entered, and so does every buffer the region does not stage, but
    for the reshaped result. -/
theorem run_main : θ_run defs (onTc (τ := τ) (main (F := F))) (s₀ m ρ)
    (Pipeline.RDat.FramePostR (cfgs 0) (fun c => (dats m 0 c).toRForget forgets0) tailWrites (V m)) :=
  Pipeline.RDat.θ_run_frame_around_T cfgs (0 : Fin 1) launch0 defs₀ Variants.none (fun c => (dats m 0 c).toRForget forgets0) tailWrites m ρ main
    (hbody := fun c => (body_obligation m c).toRForget) (hshare := fun c => ((dats m 0 c).toRForget forgets0).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl)

/-- The frame at any reading of the floats: the program runs to its end and the four argument arrays end as they began —
    the first three bypass the region and are written by no host operation, the fourth is an input window's array. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_arg0 (Finset.mem_sdiff.mpr ⟨Pipeline.mem_restRefs_of main_arg0 (by decide) (by decide), by decide⟩)).trans (V_main_arg0 m c),
     ((h c).2 main_arg1 (Finset.mem_sdiff.mpr ⟨Pipeline.mem_restRefs_of main_arg1 (by decide) (by decide), by decide⟩)).trans (V_main_arg1 m c),
     ((h c).2 main_arg2 (Finset.mem_sdiff.mpr ⟨Pipeline.mem_restRefs_of main_arg2 (by decide) (by decide), by decide⟩)).trans (V_main_arg2 m c),
     by
       have h5 := (h c).1 5
       rw [Pipeline.RDat.ArrAt_in _ 5 rfl] at h5
       exact h5.trans ((A_eq m c 5).trans (V_main_arg3 m c))⟩) (run_main m ρ)

/-- The frame of the program as printed, at the bit-exact reading. -/
theorem frame : Cert.frame_Kernel := fun m ρ _ => frame_run (F := Bits) m ρ

/-- info: 'Cert.Kernel.Run.frame' depends on axioms: [propext, Classical.choice, Quot.sound] -/
#guard_msgs in #print axioms frame

end Cert.Kernel.Run

end
-- ==== Proof.BodyIdeal.lean ====
/-
  The kernel body's run on its staging buffers.

  At one grid point the body reads six buffers whole — a 1 × 75 × 4096 slab of x, the four 16 × 75 tables and the 16 biases —
  reads the result's buffer (a load whose value is never used) and overwrites that buffer whole with one value computed from
  the six: the two quotients of 75-term contractions plus the bias.  So after the body the six inputs' buffers hold what they
  held and the result's holds that value, whatever it held before.
-/
import proofs.«157082_j4037269258264_2_alg».proof.Proof.Gen.KernelIdeal.Frame
import proofs.«157082_j4037269258264_2_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each is its whole buffer -/

abbrev rX : Rect S1x75x4096 := Rect.unit (s := S1x75x4096) ![0, 0, 0] S1x75x4096.size inb_S1x75x4096_S1x75x4096_0_0_0
abbrev rT : Rect S16x75 := Rect.unit (s := S16x75) ![0, 0] S16x75.size inb_S16x75_S16x75_0_0
abbrev rB : Rect S16 := Rect.unit (s := S16) ![0] S16.size inb_S16_S16_0
abbrev rO : Rect S1x16x4096 := Rect.unit (s := S1x16x4096) ![0, 0, 0] S1x16x4096.size inb_S1x16x4096_S1x16x4096_0_0_0

/-- The value the body stores, as a function of what the six input buffers hold. -/
def stored (x0 : Vec F S1x75x4096 .f32) (x1 x2 x3 x4 : Vec F S16x75 .f32) (x5 : Vec F S16 .f32) : FVec F S1x16x4096 .f32 :=
  k0_pay1 (k0_pay2 (View.ld x0 rX) (View.ld x1 rT) (View.ld x2 rT) (View.ld x3 rT) (View.ld x4 rT) (View.ld x5 rB))

/-- What the result's buffer holds after the body: its one store, which is the whole buffer. -/
def out6 (x0 : Vec F S1x75x4096 .f32) (x1 x2 x3 x4 : Vec F S16x75 .f32) (x5 : Vec F S16 .f32) : Vec F S1x16x4096 .f32 :=
  View.canon [⟨rO, stored x0 x1 x2 x3 x4 x5⟩]

/-- The one store covers the buffer. -/
theorem cover6 (p0 : Vec F S1x16x4096 .f32) (y : S1x16x4096.Idx) :
    ∃ pc ∈ ([⟨rO, p0⟩] : List (View.Piece (Elt F) S1x16x4096 .f32)), y ∈ pc.1.set :=
  View.cover_of_tiled [⟨rO, p0⟩] S1x16x4096.size (by rfl) y

set_option maxHeartbeats 1000000 in
/-- The body on whole staging buffers holding `x0 … x5` and, the result's, anything: it runs to the continuation with the
    six as they were and the result's buffer at `out6` of them. -/
theorem sound_kernel (c : Dev nD) (E : Set ℕ) (i : grid0.Coords)
    (arg2 : Memref sig .tc .vmem S1x75x4096 .f32) (harg2 : arg2.IsWhole) (arg3 : Memref sig .tc .vmem S16x75 .f32) (harg3 : arg3.IsWhole)
    (arg4 : Memref sig .tc .vmem S16x75 .f32) (harg4 : arg4.IsWhole) (arg5 : Memref sig .tc .vmem S16x75 .f32) (harg5 : arg5.IsWhole)
    (arg6 : Memref sig .tc .vmem S16x75 .f32) (harg6 : arg6.IsWhole) (arg7 : Memref sig .tc .vmem S16 .f32) (harg7 : arg7.IsWhole)
    (arg8 : Memref sig .tc .vmem S1x16x4096 .f32) (harg8 : arg8.IsWhole)
    (x0 : Vec F S1x75x4096 .f32) (x1 x2 x3 x4 : Vec F S16x75 .f32) (x5 : Vec F S16 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out6 x0 x1 x2 x3 x4 x5)) -∗ K ⟨⟩))
      ⊢ wp frame (wpE (defs₀ (F := F)) Variants.none c none) E
          (cc0__morph_kernel i arg2 harg2 arg3 harg3 arg4 harg4 arg5 harg5 arg6 harg6 arg7 harg7 arg8 harg8) K := by
  simp only [cc0__morph_kernel_eq_skeleton]; unfold cc0__morph_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover6 _)

end Cert.KernelIdeal.Body

end
-- ==== Proof.Spec.lean ====
/-
  The two programs' result, one entry at a time, as functions on the extended reals.

  An output entry (b, c, h, w) depends on the 75 patch values x_p = x[b, p, h, w], on column c of the two
  75 × 16 kernels, k1_p = k1[p, c] and k2_p = k2[p, c], and on the bias b_c.

  The smooth maximum of logits z_p is  Σ_p softmax(z)_p · z_p.  The reference evaluates it with the usual shift
  by the largest logit, softmax(z)_p = exp (z_p − M) / Σ_q exp (z_q − M) with M = max_q z_q  (`refBranch`), once at
  z = x + k1 and once at z = −x + k2, and adds the bias (`refEntry`).

  The kernel factors exp (x_p + k_p) = exp x_p · exp k_p and evaluates each branch as ONE quotient of two sums over p:
  (Σ_p exp k_p · (x_p · exp x_p) + Σ_p (k_p · exp k_p) · exp x_p) / Σ_p exp k_p · exp x_p   (`kernelBranchPos`), and
  the same with exp (0 − x_p) and a negated first sum for the branch at −x (`kernelBranchNeg`); `kernelEntry` is their
  sum plus the bias.
-/
import Idealize.ShloMosaic.PureOps.Ideal
import Idealize.ShloMosaic.PureOps.Ideal.Laws

noncomputable section

namespace Cert.Morph

open Idealize.ShloMosaic

/-- The reference's smooth maximum of 75 logits: the softmax weights, shifted by the largest logit, times the logits, summed. -/
def refBranch (z : Fin 75 → EReal) : EReal :=
  ∑ p : Fin 75, Ideal.div (Ideal.exp (z p - Finset.univ.sup z)) (∑ q : Fin 75, Ideal.exp (z q - Finset.univ.sup z)) * z p

/-- One entry of the reference's result: the smooth maxima of x + k1 and of −x + k2, plus the bias. -/
def refEntry (x k1 k2 : Fin 75 → EReal) (b : EReal) : EReal :=
  refBranch (fun p => x p + k1 p) + refBranch (fun p => -x p + k2 p) + b

/-- The kernel's branch at +x as one quotient of sums over the patch. -/
def kernelBranchPos (x k : Fin 75 → EReal) : EReal :=
  Ideal.div
    ((∑ p : Fin 75, Ideal.exp (k p) * (x p * Ideal.exp (x p))) + ∑ p : Fin 75, (k p * Ideal.exp (k p)) * Ideal.exp (x p))
    (∑ p : Fin 75, Ideal.exp (k p) * Ideal.exp (x p))

/-- The kernel's branch at −x: exp (0 − x_p) in place of exp x_p, the first sum negated (as 0 − ·). -/
def kernelBranchNeg (x k : Fin 75 → EReal) : EReal :=
  Ideal.div
    (((0 : EReal) - ∑ p : Fin 75, Ideal.exp (k p) * (x p * Ideal.exp (0 - x p)))
      + ∑ p : Fin 75, (k p * Ideal.exp (k p)) * Ideal.exp (0 - x p))
    (∑ p : Fin 75, Ideal.exp (k p) * Ideal.exp (0 - x p))

/-- One entry of the kernel's result. -/
def kernelEntry (x k1 k2 : Fin 75 → EReal) (b : EReal) : EReal :=
  kernelBranchPos x k1 + kernelBranchNeg x k2 + b

end Cert.Morph

end
-- ==== Proof.KernelSpec.lean ====
/-
  One entry of the kernel's result in terms of what its seven-operand call is handed: the patch values x_p, one row of each of the
  four 16 × 75 tables (e1_p = exp k1_p, ke1_p = k1_p · exp k1_p, and the same of k2) and one bias.  With the tables filled in
  this is `kernelEntry` of the specification.
-/
import proofs.«157082_j4037269258264_2_alg».proof.Proof.Spec

noncomputable section

namespace Cert.Morph

open Idealize.ShloMosaic

/-- One entry of the kernel's result from the patch values, the tables' rows and the bias: the quotient for the branch at +x,
    the quotient for the branch at −x, the bias. -/
def kernelRaw (x e1 ke1 e2 ke2 : Fin 75 → EReal) (b : EReal) : EReal :=
  Ideal.div
      ((∑ p : Fin 75, e1 p * (x p * Ideal.exp (x p))) + ∑ p : Fin 75, ke1 p * Ideal.exp (x p))
      (∑ p : Fin 75, e1 p * Ideal.exp (x p))
    + Ideal.div
      (((0 : EReal) - ∑ p : Fin 75, e2 p * (x p * Ideal.exp (0 - x p))) + ∑ p : Fin 75, ke2 p * Ideal.exp (0 - x p))
      (∑ p : Fin 75, e2 p * Ideal.exp (0 - x p))
    + b

/-- With the tables' rows computed from the two kernels' columns it is the specification's `kernelEntry`. -/
theorem kernelRaw_tables (x k1 k2 : Fin 75 → EReal) (b : EReal) :
    kernelRaw x (fun p => Ideal.exp (k1 p)) (fun p => k1 p * Ideal.exp (k1 p)) (fun p => Ideal.exp (k2 p))
      (fun p => k2 p * Ideal.exp (k2 p)) b = kernelEntry x k1 k2 b := rfl

end Cert.Morph

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.LibColumns.lean ====
/-
  Column forms of layout operations, and a minimum taken along one axis, read at an index given by coordinates.

  A reduction that keeps its axis (`keepdims`) along the LAST axis of an `[a, b]` array leaves an `[a, 1]` column:
  the vector of per-row results cast from `[a]` to `[a, 1]`, later broadcast back over the `b` columns.  The two
  lemmas here read those operations at `ix2 …` indices, beside the library's row forms (`[a] → [1, a]`,
  `[1, b] → [a, b]`).  The third reads a `minimumf` reduction along one axis, at the ideal floats, as the fold of `min`
  from the accumulator's value over that axis's coordinates; the fourth says the f32 word `0x7F800000` is `⊤`.
-/
import Idealize.ShloMosaic.Lib.ValueLayout
import Idealize.ShloMosaic.PureOps.Ideal.Laws

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float `vector.multi_reduction <minimumf>` over one axis, read at the ideal floats: the fold of `min` from the
    accumulator's value over that axis's coordinates (a column's minimum). -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The f32 word of `+∞` denotes `⊤`. -/
theorem ofBits_inf_f32 : Ideal.ofBits .f32 0x7F800000#32 = ⊤ := by
  simp [Ideal.ofBits, Ideal.ieee]

end Idealize.ShloMosaic.ValueIdx
-- ==== Proof.PayIdeal.lean ====
/-
  The value the body stores, read one entry at a time over the extended reals.

  The stored block is 1 × 16 × 4096.  Its entry (0, c, j) is computed from column j of the 75 × 4096 slab of x (the slab's leading
  unit axis dropped), row c of each of the four 16 × 75 tables and bias c, and from nothing else: each of the six matrix products
  contracts the 75 rows of ONE column of its right operand.  That is `kernelRaw`.
-/
import proofs.«157082_j4037269258264_2_alg».proof.Proof.BodyIdeal
import proofs.«157082_j4037269258264_2_alg».proof.Proof.KernelSpec
import proofs.«157082_j4037269258264_2_alg».proof.Proof.LibDotCols
import proofs.«157082_j4037269258264_2_alg».proof.Proof.LibColumns
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Body

open Cert.KernelIdeal Cert.KernelIdeal.Gen Cert.Morph
open Idealize.ShloMosaic Idealize.ShloMosaic.TcCoe Idealize.ShloMosaic.ValueIdx

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

variable {F : FTy → Type} [FloatOps F]

/-- The result's buffer after the body is the stored value: the one store is the whole buffer, and each load reads its whole buffer. -/
theorem out6_eq (x0 : Vec F S1x75x4096 .f32) (x1 x2 x3 x4 : Vec F S16x75 .f32) (x5 : Vec F S16 .f32) :
    out6 x0 x1 x2 x3 x4 x5 = k0_pay1 (k0_pay2 x0 x1 x2 x3 x4 x5) := by
  unfold out6 stored
  rw [View.canon_unit_zero hz3]
  simp only [View.ld_unit_zero (S := S1x75x4096) hz3, View.ld_unit_zero (S := S16x75) hz2, View.ld_unit_zero (S := S16) hz1]

/-- One product of a 16 × 75 table with a 75 × 4096 array into the zero accumulator, at entry (c, j): the sum over the 75 rows. -/
theorem table_product (tbl : FVec Ideal S16x75 .f32) (y : FVec Ideal S75x4096 .f32) (c : Fin 16) (j : Fin 4096) :
    matmul (F := Ideal) dot_S16x75_S75x4096_S16x4096_1_0_0_1_n_n (some .fp32) tbl y (constant S16x4096 .f32 0x00000000#32) (ix2 c j)
      = ∑ p : Fin 75, tbl (ix2 c p) * y (ix2 p j) :=
  Cert.Lib.DotCols.matmul_cols_apply (M := 16) (K := 75) (N := 4096) dot_S16x75_S75x4096_S16x4096_1_0_0_1_n_n rfl (some .fp32) tbl y c j

/-- THE STORED VALUE AT AN ENTRY. -/
theorem pay2_apply (x0 : Vec Ideal S1x75x4096 .f32) (x1 x2 x3 x4 : Vec Ideal S16x75 .f32) (x5 : Vec Ideal S16 .f32)
    (c : Fin 16) (j : Fin 4096) :
    k0_pay2 (F := Ideal) x0 x1 x2 x3 x4 x5 (ix2 c j)
      = kernelRaw (fun p => x0 (ix3 (0 : Fin 1) p j)) (fun p => x1 (ix2 c p)) (fun p => x2 (ix2 c p)) (fun p => x3 (ix2 c p))
          (fun p => x4 (ix2 c p)) (x5 (ix1 c)) := by
  unfold k0_pay2 kernelRaw
  simp only [shapeCast_self]
  simp only [addf, subf, divf, table_product, shapeCast_a_a1_apply, broadcastTo_a1_ab_apply]
  simp only [mulf, exp, subf, broadcast, shapeCast_1ab_ab_apply, Ideal.addf_def, Ideal.subf_def, Ideal.mulf_def, Ideal.divf_def,
    Ideal.exp_def, Ideal.ofBits_def, Ideal.ofBits_zero_f32, Scalar.ofBits]

end Cert.KernelIdeal.Body

end
-- ==== Proof.KernelArray.lean ====
/-
  The kernel's result array [2, 16, 48400] as one function of the six arrays its call is handed: entry (b, c, j) is `kernelRaw` of
  column j of image b of the reshaped input, row c of each table and bias c.
-/
import proofs.«157082_j4037269258264_2_alg».proof.Proof.KernelSpec
import Idealize.ShloMosaic.Lib.ValueIdx

noncomputable section

namespace Cert.Morph

open Idealize.ShloMosaic Idealize.ShloMosaic.ValueIdx

/-- Entry (b, c, j) of the kernel's result from the arrays the call is handed. -/
def callEntry (X : (⟨3, ![2, 75, 48400]⟩ : Shape).Idx → EReal) (E1 KE1 E2 KE2 : (⟨2, ![16, 75]⟩ : Shape).Idx → EReal)
    (B : (⟨1, ![16]⟩ : Shape).Idx → EReal) (b : Fin 2) (c : Fin 16) (j : Fin 48400) : EReal :=
  kernelRaw (fun p => X (ix3 b p j)) (fun p => E1 (ix2 c p)) (fun p => KE1 (ix2 c p)) (fun p => E2 (ix2 c p))
    (fun p => KE2 (ix2 c p)) (B (ix1 c))

/-- The kernel's result array. -/
def callArray (X : (⟨3, ![2, 75, 48400]⟩ : Shape).Idx → EReal) (E1 KE1 E2 KE2 : (⟨2, ![16, 75]⟩ : Shape).Idx → EReal)
    (B : (⟨1, ![16]⟩ : Shape).Idx → EReal) : (⟨3, ![2, 16, 48400]⟩ : Shape).Idx → EReal :=
  fun i => callEntry X E1 KE1 E2 KE2 B (i 0) (i 1) (i 2)

theorem callArray_apply (X : (⟨3, ![2, 75, 48400]⟩ : Shape).Idx → EReal) (E1 KE1 E2 KE2 : (⟨2, ![16, 75]⟩ : Shape).Idx → EReal)
    (B : (⟨1, ![16]⟩ : Shape).Idx → EReal) (b : Fin 2) (c : Fin 16) (j : Fin 48400) :
    callArray X E1 KE1 E2 KE2 B (ix3 b c j) = callEntry X E1 KE1 E2 KE2 B b c j := rfl

end Cert.Morph

end
-- ==== Proof.FrameIdeal.lean ====
/-
  The idealized kernel's run: what its result array holds when the region ends.

  The grid is 2 × 12: point (b, s) works on columns 4096·s … 4096·s + 4095 of image b.  48400 columns are 11 blocks of 4096 and one of
  3344, so at s = 11 the slab of x and the result's block overhang their arrays: the fetch fills the x buffer's last 752 columns with
  words nothing names, and the write-back moves only the first 3344 columns of the result's buffer.  Entry (0, c, j) of the stored
  block depends on column j of the slab alone, so on the columns that are written back the stored values do not depend on those
  unnamed words: they are the entries of ONE array, "callArray" of the six arrays the call is handed, read through the point's block.
  The twelve blocks of each image cover its 48400 columns, so the result array ends holding that array.
-/
import proofs.«157082_j4037269258264_2_alg».proof.Proof.PayIdeal
import proofs.«157082_j4037269258264_2_alg».proof.Proof.KernelArray
import Idealize.ShloMosaic.Lib.Pipeline.Value

set_option maxRecDepth 16384

noncomputable section

namespace Cert.KernelIdeal.Run

open Cert.KernelIdeal Cert.KernelIdeal.Gen Cert.KernelIdeal.Body Cert.Morph
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The result array, and the proof data -/

/-- The array the result's window ends holding: one function of the six arrays the call is handed, as the region finds them. -/
def GK (c : Dev nD) : S2x16x48400.Idx → EReal :=
  callArray (V m c main_v0) (V m c main_v7) (V m c main_v8) (V m c main_v9) (V m c main_v10) (V m c main_arg3)

/-- After the body at point t: the x slab's buffer holds its block (zero past the array's end: nothing reads that), the tables' and
    the biases' buffers their blocks, the result's buffer block t of GK (zero past the array's end). -/
def dats (_ : Fin 1) (c : Dev nD) : Dat τ (Elt Ideal) Unit ℕ (UR sig nD τ) ℕ cfg0 c where
  A w := V m c (Pipeline.arrRef spec0 w)
  after w t := match w with
    | ⟨0, _⟩ => (cfg0.win 0).fill (grid0.coords t) (fun _ => (0 : EReal)) (iblk m c 0 t)
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (cfg0.win 6).fill (grid0.coords t) (fun _ => (0 : EReal)) (((cfg0.win 6).blk t).view.read (Elt Ideal) (GK m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) :
    (dats m 0 c).after 0 t = (cfg0.win 0).fill (grid0.coords t) (fun _ => (0 : EReal)) (iblk m c 0 t) := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) :
    (dats m 0 c).after 6 t
      = (cfg0.win 6).fill (grid0.coords t) (fun _ => (0 : EReal)) (((cfg0.win 6).blk t).view.read (Elt Ideal) (GK m c)) := by
  dsimp only [dats]

/-! ## What the body finds -/

/-- The x slab is fetched at every point: its buffer holds the block on the part the fetch fills and anything past it. -/
theorem before0_0 (c : Dev nD) (t : Fin cfg0.N) (d) :
    (dats m 0 c).before 0 t d = (cfg0.win 0).fill (grid0.coords t) d (iblk m c 0 t) := by
  rw [(dats m 0 c).before_fetched 0 t (fetch0_0 t)]
  unfold Dat.fetched Dat.blockOf iblk
  rw [A_eq]
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
/-- The result's buffer was written back at the point before (or this is the first point): it holds anything. -/
theorem before0_6 (c : Dev nD) (t : Fin cfg0.N) (d) : (dats m 0 c).before 6 t d = d := by
  refine (dats m 0 c).before_out_reset 6 rfl t ?_ d
  by_cases h : t.val = 0
  · exact .inl h
  · exact .inr ⟨h, flush0_6 _⟩

/-! ## The stored block on the columns that are written back -/

/-- The value the body stores, at entry (u, c, j) of the block. -/
theorem out6_apply (x0 : Vec Ideal S1x75x4096 .f32) (x1 x2 x3 x4 : Vec Ideal S16x75 .f32) (x5 : Vec Ideal S16 .f32)
    (u : Fin 1) (co : Fin 16) (col : Fin 4096) :
    out6 (F := Ideal) x0 x1 x2 x3 x4 x5 (ix3 u co col)
      = kernelRaw (fun p => x0 (ix3 (0 : Fin 1) p col)) (fun p => x1 (ix2 co p)) (fun p => x2 (ix2 co p)) (fun p => x3 (ix2 co p))
          (fun p => x4 (ix2 co p)) (x5 (ix1 co)) := by
  rw [out6_eq]
  unfold k0_pay1
  refine (shapeCast_ab_1ab_apply _ _ u co col).trans ?_
  exact pay2_apply x0 x1 x2 x3 x4 x5 co col

/-- A filled block read on the part the fetch fills is the fetched block. -/
theorem fill_apply_of_lt {G : Pipeline.Grid} (w : Pipeline.Window sig G) {α : Type} (i : G.Coords) (d : w.block.Idx → α)
    (g : (w.xblock i).Idx → α) (j : w.block.Idx) (h : ∀ a, (j a).val < w.xsize i a) :
    w.fill i d g j = g (fun a => ⟨(j a).val, h a⟩) := by
  unfold Pipeline.Window.fill
  rw [dif_pos ((w.moved_iff i j).mpr h)]

/-- The printed index maps, decided over the 24 points: the x slab and the result's block sit at the same image and the same column
    block; the tables and the biases are whole. -/
theorem idx_facts : ∀ t : Fin cfg0.N,
    win0_0.index t (0 : Fin 3) = win0_6.index t (0 : Fin 3) ∧ win0_0.index t (1 : Fin 3) = 0
    ∧ win0_0.index t (2 : Fin 3) = win0_6.index t (2 : Fin 3) ∧ win0_6.index t (1 : Fin 3) = 0
    ∧ win0_6.index t (0 : Fin 3) ≤ 1 ∧ win0_6.index t (2 : Fin 3) ≤ 11
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0 :=
  (by decide +kernel : ∀ t : Fin grid0.N, _)

/-- The extents the transfers move, decided over the 24 points: the slab's and the result's blocks are cut alike on the column
    axis — 4096 columns, 3344 at the last column block — and not at all on the others. -/
theorem xsize_facts : ∀ t : Fin cfg0.N,
    win0_0.xsize (grid0.coords t) (0 : Fin 3) = 1 ∧ win0_0.xsize (grid0.coords t) (1 : Fin 3) = 75
    ∧ win0_0.xsize (grid0.coords t) (2 : Fin 3) = win0_6.xsize (grid0.coords t) (2 : Fin 3)
    ∧ win0_6.xsize (grid0.coords t) (0 : Fin 3) = 1 ∧ win0_6.xsize (grid0.coords t) (1 : Fin 3) = 16
    ∧ win0_6.xsize (grid0.coords t) (2 : Fin 3) ≤ 4096
    ∧ win0_6.index t (2 : Fin 3) * 4096 + win0_6.xsize (grid0.coords t) (2 : Fin 3) ≤ 48400
    ∧ (win0_6.index t (2 : Fin 3) < 11 → win0_6.xsize (grid0.coords t) (2 : Fin 3) = 4096)
    ∧ (win0_6.index t (2 : Fin 3) = 11 → win0_6.xsize (grid0.coords t) (2 : Fin 3) = 3344) :=
  (by decide +kernel : ∀ t : Fin grid0.N, _)

/-- ON THE COLUMNS WRITTEN BACK the stored block is block t of GK, whatever the slab's buffer holds past the array's end. -/
theorem cut_out6 (c : Dev nD) (t : Fin cfg0.N) (d0 : (cfg0.win 0).block.Idx → EReal) :
    (cfg0.win 6).cut (grid0.coords t)
        (out6 (F := Ideal) ((cfg0.win 0).fill (grid0.coords t) d0 (iblk m c 0 t)) (iblk m c 1 t) (iblk m c 2 t) (iblk m c 3 t)
          (iblk m c 4 t) (iblk m c 5 t))
      = ((cfg0.win 6).blk t).view.read (Elt Ideal) (GK m c) := by
  obtain ⟨e00, e01, e02, e61, b60, b62, e10, e11, e20, e21, e30, e31, e40, e41, e50⟩ := idx_facts t
  obtain ⟨s00, s01, s02, s60, s61, s62, s6in, -, -⟩ := xsize_facts t
  funext y
  have hy0 : (y 0).val < win0_6.xsize (grid0.coords t) (0 : Fin 3) := (y 0).isLt
  have hy1 : (y 1).val < win0_6.xsize (grid0.coords t) (1 : Fin 3) := (y 1).isLt
  have hy2 : (y 2).val < win0_6.xsize (grid0.coords t) (2 : Fin 3) := (y 2).isLt
  rw [s60] at hy0
  rw [s61] at hy1
  have hcol : (y 2).val < 4096 := by omega
  have hxinj : (cfg0.win 6).xinj (grid0.coords t) y = ix3 (0 : Fin 1) (⟨(y 1).val, hy1⟩ : Fin 16) (⟨(y 2).val, hcol⟩ : Fin 4096) :=
    funext fun a => Fin.ext (by
      match a with
      | ⟨0, _⟩ => show (y 0).val = 0; omega
      | ⟨1, _⟩ => rfl
      | ⟨2, _⟩ => rfl)
  show out6 (F := Ideal) _ _ _ _ _ _ ((cfg0.win 6).xinj (grid0.coords t) y) = GK m c (((cfg0.win 6).blk t).view.emb y)
  rw [hxinj, out6_apply]
  unfold GK callArray callEntry
  -- the slab: column (y 2) of the filled buffer is inside the part the fetch fills, and is column 4096·s + (y 2) of image b
  have h0 : ∀ p : Fin 75, (cfg0.win 0).fill (grid0.coords t) d0 (iblk m c 0 t) (ix3 (0 : Fin 1) p (⟨(y 2).val, hcol⟩ : Fin 4096))
      = V m c main_v0 (ix3 (((cfg0.win 6).blk t).view.emb y 0) p (((cfg0.win 6).blk t).view.emb y 2)) := fun p => by
    rw [fill_apply_of_lt (cfg0.win 0) (grid0.coords t) d0 (iblk m c 0 t) (ix3 (0 : Fin 1) p (⟨(y 2).val, hcol⟩ : Fin 4096))
      (fun a => by
        match a with
        | ⟨0, _⟩ => show 0 < win0_0.xsize (grid0.coords t) (0 : Fin 3); omega
        | ⟨1, _⟩ => show p.val < win0_0.xsize (grid0.coords t) (1 : Fin 3); have := p.isLt; omega
        | ⟨2, _⟩ => show (y 2).val < win0_0.xsize (grid0.coords t) (2 : Fin 3); omega)]
    show V m c main_v0 (((cfg0.win 0).blk t).view.emb _) = _
    refine congrArg (V m c main_v0) (funext fun a => Fin.ext ?_)
    match a with
    | ⟨0, _⟩ => show win0_0.index t (0 : Fin 3) * 1 + 1 * 0 = win0_6.index t (0 : Fin 3) * 1 + 1 * (y 0).val; omega
    | ⟨1, _⟩ => show win0_0.index t (1 : Fin 3) * 75 + 1 * p.val = p.val; omega
    | ⟨2, _⟩ => show win0_0.index t (2 : Fin 3) * 4096 + 1 * (y 2).val = win0_6.index t (2 : Fin 3) * 4096 + 1 * (y 2).val; omega
  -- the tables and the biases: whole blocks, row (y 1)
  have h1 : ∀ p : Fin 75, iblk m c 1 t (ix2 (⟨(y 1).val, hy1⟩ : Fin 16) p) = V m c main_v7 (ix2 (((cfg0.win 6).blk t).view.emb y 1) p) := fun p => by
    show V m c main_v7 (((cfg0.win 1).blk t).view.emb _) = _
    refine congrArg (V m c main_v7) (funext fun a => Fin.ext ?_)
    match a with
    | ⟨0, _⟩ => show win0_1.index t (0 : Fin 2) * 16 + 1 * (y 1).val = win0_6.index t (1 : Fin 3) * 16 + 1 * (y 1).val; omega
    | ⟨1, _⟩ => show win0_1.index t (1 : Fin 2) * 75 + 1 * p.val = p.val; omega
  have h2 : ∀ p : Fin 75, iblk m c 2 t (ix2 (⟨(y 1).val, hy1⟩ : Fin 16) p) = V m c main_v8 (ix2 (((cfg0.win 6).blk t).view.emb y 1) p) := fun p => by
    show V m c main_v8 (((cfg0.win 2).blk t).view.emb _) = _
    refine congrArg (V m c main_v8) (funext fun a => Fin.ext ?_)
    match a with
    | ⟨0, _⟩ => show win0_2.index t (0 : Fin 2) * 16 + 1 * (y 1).val = win0_6.index t (1 : Fin 3) * 16 + 1 * (y 1).val; omega
    | ⟨1, _⟩ => show win0_2.index t (1 : Fin 2) * 75 + 1 * p.val = p.val; omega
  have h3 : ∀ p : Fin 75, iblk m c 3 t (ix2 (⟨(y 1).val, hy1⟩ : Fin 16) p) = V m c main_v9 (ix2 (((cfg0.win 6).blk t).view.emb y 1) p) := fun p => by
    show V m c main_v9 (((cfg0.win 3).blk t).view.emb _) = _
    refine congrArg (V m c main_v9) (funext fun a => Fin.ext ?_)
    match a with
    | ⟨0, _⟩ => show win0_3.index t (0 : Fin 2) * 16 + 1 * (y 1).val = win0_6.index t (1 : Fin 3) * 16 + 1 * (y 1).val; omega
    | ⟨1, _⟩ => show win0_3.index t (1 : Fin 2) * 75 + 1 * p.val = p.val; omega
  have h4 : ∀ p : Fin 75, iblk m c 4 t (ix2 (⟨(y 1).val, hy1⟩ : Fin 16) p) = V m c main_v10 (ix2 (((cfg0.win 6).blk t).view.emb y 1) p) := fun p => by
    show V m c main_v10 (((cfg0.win 4).blk t).view.emb _) = _
    refine congrArg (V m c main_v10) (funext fun a => Fin.ext ?_)
    match a with
    | ⟨0, _⟩ => show win0_4.index t (0 : Fin 2) * 16 + 1 * (y 1).val = win0_6.index t (1 : Fin 3) * 16 + 1 * (y 1).val; omega
    | ⟨1, _⟩ => show win0_4.index t (1 : Fin 2) * 75 + 1 * p.val = p.val; omega
  have h5 : iblk m c 5 t (ix1 (⟨(y 1).val, hy1⟩ : Fin 16)) = V m c main_arg3 (ix1 (((cfg0.win 6).blk t).view.emb y 1)) := by
    show V m c main_arg3 (((cfg0.win 5).blk t).view.emb _) = _
    refine congrArg (V m c main_arg3) (funext fun a => Fin.ext ?_)
    match a with
    | ⟨0, _⟩ => show win0_5.index t (0 : Fin 1) * 16 + 1 * (y 1).val = win0_6.index t (1 : Fin 3) * 16 + 1 * (y 1).val; omega
  simp only [h0, h1, h2, h3, h4, h5]

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns: the two cut windows' buffers are described on the part their transfers move only. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (grid0.coords t) d ((cfg0.win 0).cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare
        ((cfg0.win 6).fill (grid0.coords t) d ((cfg0.win 6).cut (grid0.coords t) ((dats m 0 c).after 6 t)))))

/-- The body at any point. The slab's buffer comes back as it was found; the result's buffer holds the stored block, which on the
    columns written back is block t of GK (cut_out6), and that is all that is asked of it. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [(cfg0.win 0).cut_fill, (cfg0.win 6).cut_fill]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel (F := Ideal) c Set.univ (grid0.coords t) _ _ _ _ _ _ _ _ _ _ _ _ _ _
    ((cfg0.win 0).fill (grid0.coords t) d0 (iblk m c 0 t)) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexists d0; iexact H0
  isplitl [H1]; · iexact H1
  isplitl [H2]; · iexact H2
  isplitl [H3]; · iexact H3
  isplitl [H4]; · iexact H4
  isplitl [H5]; · iexact H5
  iexists (out6 (F := Ideal) ((cfg0.win 0).fill (grid0.coords t) d0 (iblk m c 0 t)) (iblk m c 1 t) (iblk m c 2 t) (iblk m c 3 t)
    (iblk m c 4 t) (iblk m c 5 t))
  rw [← cut_out6 m c t d0, (cfg0.win 6).fill_cut]
  iexact H6

/-- The library's body obligation, at every point. -/
theorem body_obligation (c : Dev nD) : BodyObligationLoose (dats m 0 c) (defs₀ (F := Ideal)) Variants.none () Set.univ := fun t => by
  rw [bigSep_W0, bigSep_W0]
  exact sound_body m c t

/-! ## The run -/

set_option backward.isDefEq.respectTransparency.types false in
/-- Every weakly fair execution of @main terminates; every array of the pipeline ends at what the proof data compute, every other
    unscoped buffer as the line after the region leaves it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the four argument arrays end as launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-! ## The result array after the run -/

/-- What point t writes back is block t of GK. -/
theorem flushed6_eq (c : Dev nD) (t : Fin cfg0.N) :
    (dats m 0 c).flushed 6 t = ((cfg0.win 6).blk t).view.read (Elt Ideal) (GK m c) := by
  show (cfg0.win 6).cut (grid0.coords t) ((dats m 0 c).after 6 t) = _
  rw [after0_6, (cfg0.win 6).cut_fill]

/-- An index of the result array is in point t's block iff each coordinate is in the block's range, cut at the array's end. -/
theorem mem_blk6 (t : Fin cfg0.N) (i : S2x16x48400.Idx) :
    i ∈ ((cfg0.win 6).blk t).view.set ↔ ∀ a : Fin 3, win0_6.index t a * S1x16x4096.size a ≤ (i a).val
      ∧ (i a).val < win0_6.index t a * S1x16x4096.size a + win0_6.xsize (grid0.coords t) a := by
  show i ∈ ((View.whole main_v11).slice (win0_6.rect t)).set ↔ _
  rw [View.set_slice_whole, Rect.mem_set_unit]
  exact Iff.rfl

/-- Every (image, column block) pair is some point's. -/
theorem idx_onto6 : ∀ (q0 : Fin 2) (q2 : Fin 12), ∃ t : Fin cfg0.N, win0_6.index t = ![q0.val, 0, q2.val] :=
  (by decide +kernel : ∀ (q0 : Fin 2) (q2 : Fin 12), ∃ t : Fin grid0.N, win0_6.index t = ![q0.val, 0, q2.val])

/-- The 24 blocks cover the result array: column j of image b is in the block of point (b, j / 4096) — eleven blocks of 4096 columns
    and the last of 3344. -/
theorem cover6 (i : S2x16x48400.Idx) :
    ∃ t : Fin cfg0.N, (cfg0.win 6).flush t = true ∧ i ∈ ((cfg0.win 6).blk t).view.set := by
  have hi0 : (i 0).val < 2 := (i 0).isLt
  have hi1 : (i 1).val < 16 := (i 1).isLt
  have hi2 : (i 2).val < 48400 := (i 2).isLt
  obtain ⟨t, ht⟩ := idx_onto6 ⟨(i 0).val, hi0⟩ ⟨(i 2).val / 4096, by omega⟩
  have q0 : win0_6.index t (0 : Fin 3) = (i 0).val := congrFun ht 0
  have q1 : win0_6.index t (1 : Fin 3) = 0 := congrFun ht 1
  have q2 : win0_6.index t (2 : Fin 3) = (i 2).val / 4096 := congrFun ht 2
  obtain ⟨-, -, -, s60, s61, s62, s6in, sfull, slast⟩ := xsize_facts t
  refine ⟨t, flush0_6 t, ?_⟩
  rw [mem_blk6]
  intro a
  match a with
  | ⟨0, _⟩ =>
    show win0_6.index t (0 : Fin 3) * 1 ≤ (i 0).val ∧ (i 0).val < win0_6.index t (0 : Fin 3) * 1 + win0_6.xsize (grid0.coords t) (0 : Fin 3)
    omega
  | ⟨1, _⟩ =>
    show win0_6.index t (1 : Fin 3) * 16 ≤ (i 1).val ∧ (i 1).val < win0_6.index t (1 : Fin 3) * 16 + win0_6.xsize (grid0.coords t) (1 : Fin 3)
    omega
  | ⟨2, _⟩ =>
    show win0_6.index t (2 : Fin 3) * 4096 ≤ (i 2).val ∧ (i 2).val < win0_6.index t (2 : Fin 3) * 4096 + win0_6.xsize (grid0.coords t) (2 : Fin 3)
    by_cases h11 : win0_6.index t (2 : Fin 3) < 11
    · have := sfull h11; omega
    · have h' : win0_6.index t (2 : Fin 3) = 11 := by omega
      have := slast h'; omega

/-- THE RESULT ARRAY after the run is GK. -/
theorem final6 (c : Dev nD) : (dats m 0 c).arrAt 6 cfg0.N = GK m c :=
  (dats m 0 c).arrAt_eq_of_cover 6 (GK m c) (fun t _ => flushed6_eq m c t) (cover6)

end Cert.KernelIdeal.Run

end
-- ==== Proof.HostGlue.lean ====
/-
  The kernel program's host operations around its one region, read index by index at the ideal instance.

  Before the region the host reshapes x : [2, 75, 220, 220] to [2, 75, 48400] (row-major: column h · 220 + w), reshapes the two
  kernels [5, 5, 3, 16] to 75 × 16 matrices K1 and K2, forms exp K, K · exp K elementwise and transposes the four tables to
  16 × 75.  After the region the host reshapes the region's result [2, 16, 48400] to [2, 16, 220, 220].  So the program's
  result at (b, c, h, w) is the result window's final array at (b, c, h · 220 + w), and, when that array is the kernel's
  result array of the six arrays the region finds, it is the specification's kernel entry of the patch x[b, ·, h, w], columns c
  of K1 and K2 and bias c.
-/
import proofs.«157082_j4037269258264_2_alg».proof.Proof.Gen.KernelIdeal.Frame
import proofs.«157082_j4037269258264_2_alg».proof.Proof.KernelArray
import Idealize.ShloMosaic.Lib.Pipeline.Value
import Idealize.ShloMosaic.Lib.Pipeline.FrameSuffix
import Idealize.ShloMosaic.Lib.ValueLayout
import Idealize.ShloMosaic.Lib.ValueIdx
import Idealize.ShloMosaic.Lib.StableHlo.Run
import Idealize.ShloMosaic.PureOps.Ideal.Laws

set_option maxRecDepth 16384

noncomputable section

namespace Cert.KernelIdeal.Glue

open Cert.KernelIdeal Cert.KernelIdeal.Gen
open Idealize.ShloMosaic Idealize.ShloMosaic.TcCoe Idealize.ShloMosaic.ValueIdx Idealize.ShloMosaic.StableHlo
open Idealize.SL.Sem
open Idealize.ShloMosaic.Pipeline (Dat Cfg)

variable (m : (ℓ : Loc nD τ sig) → Buf (Elt Ideal) ℓ) (c : Dev nD)

/-- The input array as launched. -/
abbrev X : S2x75x220x220.Idx → EReal := m ((c : Thread nD τ).loc main_arg0)
/-- The first kernel as launched, as a 75 × 16 matrix. -/
abbrev K1 : S75x16.Idx → EReal := shapeCast S75x16 (m ((c : Thread nD τ).loc main_arg1)) Gen.shapeCasts_S5x5x3x16_S75x16
/-- The second kernel as launched, as a 75 × 16 matrix. -/
abbrev K2 : S75x16.Idx → EReal := shapeCast S75x16 (m ((c : Thread nD τ).loc main_arg2)) Gen.shapeCasts_S5x5x3x16_S75x16
/-- The bias as launched. -/
abbrev Bias : S16.Idx → EReal := m ((c : Thread nD τ).loc main_arg3)

/-- The region finds, as its first array, x reshaped to [2, 75, 48400]. -/
theorem v0_eq : (Gen.V m c main_v0 : S2x75x48400.Idx → EReal)
    = shapeCast S2x75x48400 (X m c) Gen.shapeCasts_S2x75x220x220_S2x75x48400 := by
  show StableHlo.after hostOps0 (fun b => m (c, b)) (Proc.devRef .tc main_v0) = _
  after_results; rfl

/-- … whose entry (b, p, h · 220 + w) is x[b, p, h, w]. -/
theorem v0_apply (b : Fin 2) (p : Fin 75) (h w : Fin 220) :
    (Gen.V m c main_v0 : S2x75x48400.Idx → EReal)
        (ix3 b p (⟨h.val * 220 + w.val, by have := h.isLt; have := w.isLt; omega⟩ : Fin 48400))
      = X m c (ix4 b p h w) := by
  rw [v0_eq]
  exact shapeCast_apply (X m c) Gen.shapeCasts_S2x75x220x220_S2x75x48400 _ (ix4 b p h w)
    (by rewrite [Shape.rowMajor_val_four, Shape.rowMajor_val_three]
        show ((b.val * 75 + p.val) * 220 + h.val) * 220 + w.val = (b.val * 75 + p.val) * 48400 + (h.val * 220 + w.val)
        omega)

/-- The second array is exp K1, transposed. -/
theorem v7_eq : (Gen.V m c main_v7 : S16x75.Idx → EReal)
    = transpose S16x75 [1, 0] (Host.exp (F := Ideal) (φ := .f32) (K1 m c)) Gen.transposes_S75x16_S16x75_1_0 := by
  show StableHlo.after hostOps0 (fun b => m (c, b)) (Proc.devRef .tc main_v7) = _
  after_results; rfl

/-- … whose entry (c, p) is exp K1[p, c]. -/
theorem v7_apply (co : Fin 16) (p : Fin 75) :
    (Gen.V m c main_v7 : S16x75.Idx → EReal) (ix2 co p) = Ideal.exp (K1 m c (ix2 p co)) := by
  rw [v7_eq, transpose_ix2_apply]; rfl

/-- The third array is K1 · exp K1, transposed. -/
theorem v8_eq : (Gen.V m c main_v8 : S16x75.Idx → EReal)
    = transpose S16x75 [1, 0] (mulf (F := Ideal) (φ := .f32) (K1 m c) (Host.exp (F := Ideal) (φ := .f32) (K1 m c)))
        Gen.transposes_S75x16_S16x75_1_0 := by
  show StableHlo.after hostOps0 (fun b => m (c, b)) (Proc.devRef .tc main_v8) = _
  after_results; rfl

/-- … whose entry (c, p) is K1[p, c] · exp K1[p, c]. -/
theorem v8_apply (co : Fin 16) (p : Fin 75) :
    (Gen.V m c main_v8 : S16x75.Idx → EReal) (ix2 co p) = K1 m c (ix2 p co) * Ideal.exp (K1 m c (ix2 p co)) := by
  rw [v8_eq, transpose_ix2_apply]; rfl

/-- The fourth array is exp K2, transposed. -/
theorem v9_eq : (Gen.V m c main_v9 : S16x75.Idx → EReal)
    = transpose S16x75 [1, 0] (Host.exp (F := Ideal) (φ := .f32) (K2 m c)) Gen.transposes_S75x16_S16x75_1_0 := by
  show StableHlo.after hostOps0 (fun b => m (c, b)) (Proc.devRef .tc main_v9) = _
  after_results; rfl

/-- … whose entry (c, p) is exp K2[p, c]. -/
theorem v9_apply (co : Fin 16) (p : Fin 75) :
    (Gen.V m c main_v9 : S16x75.Idx → EReal) (ix2 co p) = Ideal.exp (K2 m c (ix2 p co)) := by
  rw [v9_eq, transpose_ix2_apply]; rfl

/-- The fifth array is K2 · exp K2, transposed. -/
theorem v10_eq : (Gen.V m c main_v10 : S16x75.Idx → EReal)
    = transpose S16x75 [1, 0] (mulf (F := Ideal) (φ := .f32) (K2 m c) (Host.exp (F := Ideal) (φ := .f32) (K2 m c)))
        Gen.transposes_S75x16_S16x75_1_0 := by
  show StableHlo.after hostOps0 (fun b => m (c, b)) (Proc.devRef .tc main_v10) = _
  after_results; rfl

/-- … whose entry (c, p) is K2[p, c] · exp K2[p, c]. -/
theorem v10_apply (co : Fin 16) (p : Fin 75) :
    (Gen.V m c main_v10 : S16x75.Idx → EReal) (ix2 co p) = K2 m c (ix2 p co) * Ideal.exp (K2 m c (ix2 p co)) := by
  rw [v10_eq, transpose_ix2_apply]; rfl

/-- The program's result is the result window's final array reshaped to [2, 16, 220, 220], whatever the proof data. -/
theorem tail_eq (dats : (p : Fin 1) → (c : Dev nD) → Dat τ (Elt Ideal) Unit ℕ (UR sig nD τ) ℕ (cfgs p) c) :
    (Pipeline.afterTail₀ cfgs dats 0 (Gen.V0 m) [Gen.hostOps1] c main_v12 : S2x16x220x220.Idx → EReal)
      = shapeCast S2x16x220x220 ((dats 0 c).arrAt 6 cfg0.N : S2x16x48400.Idx → EReal)
          Gen.shapeCasts_S2x16x48400_S2x16x220x220 := by
  unfold Pipeline.afterTail₀
  show StableHlo.after hostOps1 _ (Proc.devRef .tc main_v12) = _
  after_results
  exact congrArg
    (fun A : S2x16x48400.Idx → EReal => shapeCast S2x16x220x220 A Gen.shapeCasts_S2x16x48400_S2x16x220x220)
    (Pipeline.withArrays_arr spec0 launch0.win.arr_inj c (Gen.V0 m c) (fun w => (dats 0 c).arrAt w cfg0.N) 6)

/-- … so its entry (b, c, h, w) is that array's entry (b, c, h · 220 + w). -/
theorem tail_apply (dats : (p : Fin 1) → (c : Dev nD) → Dat τ (Elt Ideal) Unit ℕ (UR sig nD τ) ℕ (cfgs p) c)
    (b : Fin 2) (co : Fin 16) (h w : Fin 220) :
    (Pipeline.afterTail₀ cfgs dats 0 (Gen.V0 m) [Gen.hostOps1] c main_v12 : S2x16x220x220.Idx → EReal) (ix4 b co h w)
      = ((dats 0 c).arrAt 6 cfg0.N : S2x16x48400.Idx → EReal)
          (ix3 b co (⟨h.val * 220 + w.val, by have := h.isLt; have := w.isLt; omega⟩ : Fin 48400)) := by
  rw [tail_eq]
  exact shapeCast_apply _ Gen.shapeCasts_S2x16x48400_S2x16x220x220 (ix4 b co h w) _
    (by rewrite [Shape.rowMajor_val_three, Shape.rowMajor_val_four]
        show (b.val * 16 + co.val) * 48400 + (h.val * 220 + w.val) = ((b.val * 16 + co.val) * 220 + h.val) * 220 + w.val
        omega)

/-- The kernel's entry depends on its seven arguments only through their values. -/
theorem kernelRaw_congr {x x' e1 e1' ke1 ke1' e2 e2' ke2 ke2' : Fin 75 → EReal} {b b' : EReal}
    (hx : ∀ p, x p = x' p) (h1 : ∀ p, e1 p = e1' p) (hk1 : ∀ p, ke1 p = ke1' p) (h2 : ∀ p, e2 p = e2' p)
    (hk2 : ∀ p, ke2 p = ke2' p) (hb : b = b') :
    Cert.Morph.kernelRaw x e1 ke1 e2 ke2 b = Cert.Morph.kernelRaw x' e1' ke1' e2' ke2' b' := by
  obtain rfl : x = x' := funext hx
  obtain rfl : e1 = e1' := funext h1
  obtain rfl : ke1 = ke1' := funext hk1
  obtain rfl : e2 = e2' := funext h2
  obtain rfl : ke2 = ke2' := funext hk2
  rw [hb]

/-- When the result window's final array is the kernel's result array of the six arrays the region finds, the program's
    result at (b, c, h, w) is the specification's kernel entry of the patch x[b, ·, h, w], columns c of K1 and K2, and bias c. -/
theorem kernel_entry (dats : (p : Fin 1) → (c : Dev nD) → Dat τ (Elt Ideal) Unit ℕ (UR sig nD τ) ℕ (cfgs p) c)
    (hfin : ((dats 0 c).arrAt 6 cfg0.N : S2x16x48400.Idx → EReal)
      = Cert.Morph.callArray (Gen.V m c main_v0) (Gen.V m c main_v7) (Gen.V m c main_v8) (Gen.V m c main_v9)
          (Gen.V m c main_v10) (Gen.V m c main_arg3))
    (b : Fin 2) (co : Fin 16) (h w : Fin 220) :
    (Pipeline.afterTail₀ cfgs dats 0 (Gen.V0 m) [Gen.hostOps1] c main_v12 : S2x16x220x220.Idx → EReal) (ix4 b co h w)
      = Cert.Morph.kernelEntry (fun p => X m c (ix4 b p h w)) (fun p => K1 m c (ix2 p co)) (fun p => K2 m c (ix2 p co))
          (Bias m c (ix1 co)) := by
  rw [tail_apply m c dats b co h w, hfin, Cert.Morph.callArray_apply, ← Cert.Morph.kernelRaw_tables]
  unfold Cert.Morph.callEntry
  exact kernelRaw_congr (fun p => v0_apply m c b p h w) (fun p => v7_apply m c co p) (fun p => v8_apply m c co p)
    (fun p => v9_apply m c co p) (fun p => v10_apply m c co p) (congrFun (Gen.V_main_arg3 m c) (ix1 co))

end Cert.KernelIdeal.Glue

end
-- ==== Proof.Algebra.lean ====
/-
  The algebraic law behind the kernel: on real inputs, one entry of the kernel's result equals one entry of the
  reference's result.

  For real logits z_p the smooth maximum Σ_p softmax(z)_p · z_p equals the single quotient
  (Σ_p z_p · exp z_p) / (Σ_p exp z_p): the shift by the largest logit M multiplies numerator and denominator of every
  weight by the same positive number exp (−M), which cancels.  The kernel's quotient is the same number after
  exp (x_p + k_p) = exp x_p · exp k_p  and  (x_p + k_p) · exp (x_p + k_p) = exp k_p · (x_p · exp x_p) + (k_p · exp k_p) · exp x_p.
  All sums are finite sums of reals, every denominator is a sum of positive reals, so nothing leaves the reals.
-/
import proofs.«157082_j4037269258264_2_alg».proof.Proof.Spec

noncomputable section

namespace Cert.Morph

open Idealize.ShloMosaic

/-! ### Finite sums of reals inside the extended reals -/

/-- The embedding of the reals into the extended reals commutes with finite sums. -/
theorem coe_finsum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of 75 exponentials is positive. -/
theorem sum_exp_pos (z : Fin 75 → ℝ) : 0 < ∑ p, Real.exp (z p) :=
  Finset.sum_pos (fun p _ => Real.exp_pos _) Finset.univ_nonempty

/-! ### The three identities on the reals -/

/-- The shifted softmax weights times the logits sum to one quotient; the shift m is arbitrary. -/
theorem real_softmax_sum (z : Fin 75 → ℝ) (m : ℝ) :
    ∑ p, Real.exp (z p - m) * (1 / ∑ q, Real.exp (z q - m)) * z p
      = (∑ p, z p * Real.exp (z p)) / (∑ p, Real.exp (z p)) := by
  have hS : 0 < ∑ q, Real.exp (z q) := sum_exp_pos z
  have hc : 0 < Real.exp m := Real.exp_pos m
  have hD : ∑ q, Real.exp (z q - m) = (∑ q, Real.exp (z q)) / Real.exp m := by
    rw [Finset.sum_div]; exact Finset.sum_congr rfl (fun q _ => Real.exp_sub _ _)
  rw [hD, Finset.sum_div _ _ (∑ p, Real.exp (z p))]
  refine Finset.sum_congr rfl (fun p _ => ?_)
  rw [Real.exp_sub]
  field_simp

/-- The kernel's quotient at +x is the quotient of the logits x + k. -/
theorem real_kernel_pos (x k : Fin 75 → ℝ) :
    ((∑ p, Real.exp (k p) * (x p * Real.exp (x p))) + ∑ p, (k p * Real.exp (k p)) * Real.exp (x p))
        * (1 / ∑ p, Real.exp (k p) * Real.exp (x p))
      = (∑ p, (x p + k p) * Real.exp (x p + k p)) / (∑ p, Real.exp (x p + k p)) := by
  rw [← Finset.sum_add_distrib, mul_one_div]
  congr 1
  · refine Finset.sum_congr rfl (fun p _ => ?_); rw [Real.exp_add]; ring
  · refine Finset.sum_congr rfl (fun p _ => ?_); rw [Real.exp_add]; ring

/-- The kernel's quotient at −x is the quotient of the logits −x + k. -/
theorem real_kernel_neg (x k : Fin 75 → ℝ) :
    ((0 - ∑ p, Real.exp (k p) * (x p * Real.exp (0 - x p))) + ∑ p, (k p * Real.exp (k p)) * Real.exp (0 - x p))
        * (1 / ∑ p, Real.exp (k p) * Real.exp (0 - x p))
      = (∑ p, (-x p + k p) * Real.exp (-x p + k p)) / (∑ p, Real.exp (-x p + k p)) := by
  rw [zero_sub, ← Finset.sum_neg_distrib, ← Finset.sum_add_distrib, mul_one_div]
  congr 1
  · refine Finset.sum_congr rfl (fun p _ => ?_); rw [Real.exp_add, zero_sub]; ring
  · refine Finset.sum_congr rfl (fun p _ => ?_); rw [Real.exp_add, zero_sub]; ring

/-! ### The branches on real inputs -/

/-- The reference's smooth maximum of real logits is the real quotient (Σ z·exp z) / (Σ exp z). -/
theorem refBranch_coe (z : Fin 75 → ℝ) :
    refBranch (fun p => (z p : EReal))
      = (((∑ p, z p * Real.exp (z p)) / (∑ p, Real.exp (z p)) : ℝ) : EReal) := by
  obtain ⟨i, -, hi⟩ := Finset.exists_mem_eq_sup (Finset.univ : Finset (Fin 75)) Finset.univ_nonempty
    (fun p => (z p : EReal))
  have hpos : 0 < ∑ q, Real.exp (z q - z i) := sum_exp_pos (fun q => z q - z i)
  have hden : (∑ q : Fin 75, Ideal.exp ((z q : EReal) - (z i : EReal)))
      = ((∑ q, Real.exp (z q - z i) : ℝ) : EReal) := by
    rw [coe_finsum]; refine Finset.sum_congr rfl (fun q _ => ?_); rw [← EReal.coe_sub, Ideal.exp_coe]
  unfold refBranch
  rw [hi]
  dsimp only
  rw [← real_softmax_sum z (z i), coe_finsum]
  refine Finset.sum_congr rfl (fun p _ => ?_)
  rw [hden, ← EReal.coe_sub, Ideal.exp_coe, Ideal.div_coe hpos.ne', ← EReal.coe_mul, ← EReal.coe_mul]

/-- The kernel's branch at +x on real inputs. -/
theorem kernelBranchPos_coe (x k : Fin 75 → ℝ) :
    kernelBranchPos (fun p => (x p : EReal)) (fun p => (k p : EReal))
      = (((∑ p, (x p + k p) * Real.exp (x p + k p)) / (∑ p, Real.exp (x p + k p)) : ℝ) : EReal) := by
  have hpos : 0 < ∑ p, Real.exp (k p) * Real.exp (x p) :=
    Finset.sum_pos (fun p _ => mul_pos (Real.exp_pos _) (Real.exp_pos _)) Finset.univ_nonempty
  have h1 : (∑ p : Fin 75, Ideal.exp (k p : EReal) * ((x p : EReal) * Ideal.exp (x p : EReal)))
      = ((∑ p, Real.exp (k p) * (x p * Real.exp (x p)) : ℝ) : EReal) := by
    rw [coe_finsum]; refine Finset.sum_congr rfl (fun p _ => ?_)
    rw [Ideal.exp_coe, Ideal.exp_coe, EReal.coe_mul, EReal.coe_mul]
  have h2 : (∑ p : Fin 75, ((k p : EReal) * Ideal.exp (k p : EReal)) * Ideal.exp (x p : EReal))
      = ((∑ p, (k p * Real.exp (k p)) * Real.exp (x p) : ℝ) : EReal) := by
    rw [coe_finsum]; refine Finset.sum_congr rfl (fun p _ => ?_)
    rw [Ideal.exp_coe, Ideal.exp_coe, EReal.coe_mul, EReal.coe_mul]
  have h3 : (∑ p : Fin 75, Ideal.exp (k p : EReal) * Ideal.exp (x p : EReal))
      = ((∑ p, Real.exp (k p) * Real.exp (x p) : ℝ) : EReal) := by
    rw [coe_finsum]; refine Finset.sum_congr rfl (fun p _ => ?_)
    rw [Ideal.exp_coe, Ideal.exp_coe, EReal.coe_mul]
  unfold kernelBranchPos
  dsimp only
  rw [h1, h2, h3, Ideal.div_coe hpos.ne', ← EReal.coe_add, ← EReal.coe_mul, real_kernel_pos]

/-- The kernel's branch at −x on real inputs. -/
theorem kernelBranchNeg_coe (x k : Fin 75 → ℝ) :
    kernelBranchNeg (fun p => (x p : EReal)) (fun p => (k p : EReal))
      = (((∑ p, (-x p + k p) * Real.exp (-x p + k p)) / (∑ p, Real.exp (-x p + k p)) : ℝ) : EReal) := by
  have hpos : 0 < ∑ p, Real.exp (k p) * Real.exp (0 - x p) :=
    Finset.sum_pos (fun p _ => mul_pos (Real.exp_pos _) (Real.exp_pos _)) Finset.univ_nonempty
  have hz : ∀ p, ((0 : EReal) - (x p : EReal)) = ((0 - x p : ℝ) : EReal) := by
    intro p; rw [EReal.coe_sub, EReal.coe_zero]
  have h1 : (∑ p : Fin 75, Ideal.exp (k p : EReal) * ((x p : EReal) * Ideal.exp ((0 : EReal) - (x p : EReal))))
      = ((∑ p, Real.exp (k p) * (x p * Real.exp (0 - x p)) : ℝ) : EReal) := by
    rw [coe_finsum]; refine Finset.sum_congr rfl (fun p _ => ?_)
    rw [hz, Ideal.exp_coe, Ideal.exp_coe, EReal.coe_mul, EReal.coe_mul]
  have h2 : (∑ p : Fin 75, ((k p : EReal) * Ideal.exp (k p : EReal)) * Ideal.exp ((0 : EReal) - (x p : EReal)))
      = ((∑ p, (k p * Real.exp (k p)) * Real.exp (0 - x p) : ℝ) : EReal) := by
    rw [coe_finsum]; refine Finset.sum_congr rfl (fun p _ => ?_)
    rw [hz, Ideal.exp_coe, Ideal.exp_coe, EReal.coe_mul, EReal.coe_mul]
  have h3 : (∑ p : Fin 75, Ideal.exp (k p : EReal) * Ideal.exp ((0 : EReal) - (x p : EReal)))
      = ((∑ p, Real.exp (k p) * Real.exp (0 - x p) : ℝ) : EReal) := by
    rw [coe_finsum]; refine Finset.sum_congr rfl (fun p _ => ?_)
    rw [hz, Ideal.exp_coe, Ideal.exp_coe, EReal.coe_mul]
  unfold kernelBranchNeg
  dsimp only
  rw [h1, h2, h3, Ideal.div_coe hpos.ne', ← EReal.coe_zero, ← EReal.coe_sub, ← EReal.coe_add, ← EReal.coe_mul,
    real_kernel_neg]

/-! ### One entry -/

/-- On real inputs, one entry of the kernel's result is the same extended real as one entry of the reference's. -/
theorem kernelEntry_eq_refEntry (x k1 k2 : Fin 75 → ℝ) (b : ℝ) :
    kernelEntry (fun p => ((x p : ℝ) : EReal)) (fun p => ((k1 p : ℝ) : EReal)) (fun p => ((k2 p : ℝ) : EReal)) ((b : ℝ) : EReal)
      = refEntry (fun p => ((x p : ℝ) : EReal)) (fun p => ((k1 p : ℝ) : EReal)) (fun p => ((k2 p : ℝ) : EReal)) ((b : ℝ) : EReal) := by
  have hp : (fun p : Fin 75 => ((x p : ℝ) : EReal) + ((k1 p : ℝ) : EReal)) = fun p => ((x p + k1 p : ℝ) : EReal) := by
    funext p; rw [EReal.coe_add]
  have hn : (fun p : Fin 75 => -((x p : ℝ) : EReal) + ((k2 p : ℝ) : EReal)) = fun p => ((-x p + k2 p : ℝ) : EReal) := by
    funext p; rw [EReal.coe_add, EReal.coe_neg]
  unfold kernelEntry refEntry
  dsimp only
  rw [hp, hn, refBranch_coe, refBranch_coe, kernelBranchPos_coe, kernelBranchNeg_coe]

end Cert.Morph

end
-- ==== Proof.Finite.lean ====
import proofs.«157082_j4037269258264_2_alg».proof.Pre_finite_inputs
import proofs.«157082_j4037269258264_2_alg».proof.Proof.Gen.Pre_finite_inputs
import Idealize.ShloMosaic.PureOps.Ideal
import Idealize.ShloMosaic.Lib.ReduceAll
import Idealize.ShloMosaic.Lib.ValueIdx

/-!
# Finiteness read out of the precondition

The precondition says, array by array, that every entry `v` satisfies `|v| < +∞` (all four conjoined).
In the extended reals `|v| = max v (-v)`, and `max v (-v) < ⊤` excludes both `⊤` and `⊥`, so every entry
is (the coercion of) a real number.
-/

namespace Cert.Morph
open Idealize.ShloMosaic Cert.Pre_finite_inputs

/-- An extended real whose absolute value `max x (-x)` lies strictly below `+∞` is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- The shape of a scalar has exactly one index. -/
instance subsingleton_scalar_idx : Subsingleton S_.Idx := ⟨fun a b => funext fun d => d.elim0⟩

/-- One array's conjunct: if the conjunction over all entries of `|v| < +∞` holds, every entry of `v` is real. -/
theorem real_of_all_lt_inf {s : Shape} {axes : List (Fin s.rank)} (v : FVec Ideal s .f32)
    (hb : S_.BroadcastsInDim s (![] : Fin 0 → Fin s.rank)) (hr : s.ReducesTo axes S_) (hu : 0 < S_.numel)
    (e : Host.reduce IntOp.andi
        (cmpf .olt (Host.absf v) (broadcastInDim s ![] hb (constant (F := Ideal) S_ .f32 0x7F800000#32)))
        (constantI S_ 1 1#1) hr hu ValueIdx.ix0 = 1#1) :
    ∀ i, ∃ r : ℝ, v i = (r : EReal) := by
  intro i
  have hi := Host.reduce_andi_all _ _ hr hu ValueIdx.ix0 e i
  exact real_of_abs_lt_inf (v i) hi

theorem real_of_pre [Cert.Pre_finite_inputs.Facts]
    (x0 : FVec Ideal S2x75x220x220 .f32) (x1 x2 : FVec Ideal S5x5x3x16 .f32) (x3 : FVec Ideal S16 .f32)
    (h : Cert.Pre_finite_inputs.fn (F := Ideal) x0 x1 x2 x3 = (fun _ => 1#1)) :
    (∀ i, ∃ r : ℝ, x0 i = (r : EReal)) ∧ (∀ i, ∃ r : ℝ, x1 i = (r : EReal)) ∧ (∀ i, ∃ r : ℝ, x2 i = (r : EReal)) ∧ (∀ i, ∃ r : ℝ, x3 i = (r : EReal)) := by
  have h0 := congrFun h ValueIdx.ix0
  dsimp only [Cert.Pre_finite_inputs.fn, Cert.Pre_finite_inputs.fn_part1] at h0
  obtain ⟨h012, e3⟩ := IntOp.andi_eq_one.1 h0
  obtain ⟨h01, e2⟩ := IntOp.andi_eq_one.1 h012
  obtain ⟨e0, e1⟩ := IntOp.andi_eq_one.1 h01
  exact ⟨real_of_all_lt_inf x0 _ _ _ e0, real_of_all_lt_inf x1 _ _ _ e1, real_of_all_lt_inf x2 _ _ _ e2,
    real_of_all_lt_inf x3 _ _ _ e3⟩

end Cert.Morph
-- ==== Proof.LibHostMaxAx1R5.lean ====
/-
  A host reduction with a maximum body, started from the bottom element, over the SECOND axis (axis 1) of a rank-5 array
  [a, n, c, h, w], read at an index over the extended reals: at (p, q, r, s) it is the supremum of the `n` entries
  (p, ·, q, r, s). The reduction is a fold of `max` over the reduced axis's coordinates in some order, and a fold of `max` from
  the bottom element over a finite family is the family's supremum whatever the order. (A softmax taken over the patch axis of
  [batch, patch, channel, row, column] logits reduces this axis.) The f32 pattern 0xFF800000 denotes the bottom element.
-/
import Idealize.ShloMosaic.Lib.ValueIdx
import Idealize.ShloMosaic.Lib.Pipeline.Value
import Idealize.ShloMosaic.PureOps.Ideal.Laws

noncomputable section

namespace HostMaxAx1R5

open Idealize.ShloMosaic Idealize.ShloMosaic.ValueIdx

/-- The f32 pattern of −∞ denotes the bottom element of the extended reals. -/
theorem ofBits_neg_inf_f32 : Ideal.ofBits .f32 0xFF800000#32 = (⊥ : EReal) := by simp [Ideal.ofBits, Ideal.ieee]

/-- Position (p, q, r, s) of the result with coordinate `k` put back on the reduced (second) axis of an [a, n, c, h, w] array
    is (p, k, q, r, s). -/
theorem lift_ax1 {a n c h w : ℕ} (hr : (⟨5, ![a, n, c, h, w]⟩ : Shape).Reduces [1] (⟨4, ![a, c, h, w]⟩ : Shape))
    (p : Fin a) (q : Fin c) (r : Fin h) (s : Fin w) (k : Fin ((⟨5, ![a, n, c, h, w]⟩ : Shape).size 1)) :
    hr.lift (ix4 p q r s) k = ix5 p (⟨k.val, k.isLt⟩ : Fin n) q r s := by
  funext d; apply Fin.ext
  fin_cases d <;> rfl

/-- From −∞ the maximum over the second axis of an [a, n, c, h, w] array, at (p, q, r, s), is the supremum of the entries
    (p, ·, q, r, s): a fold of `max` from the bottom element over a finite family is the family's supremum. -/
theorem reduce_ax1 {a n c h w : ℕ} (v : FVec Ideal ⟨5, ![a, n, c, h, w]⟩ .f32) (init : (⟨0, ![]⟩ : Shape).Idx → Ideal .f32)
    (hinit : ∀ i, init i = (⊥ : EReal))
    (h' : (⟨5, ![a, n, c, h, w]⟩ : Shape).ReducesTo [1] (⟨4, ![a, c, h, w]⟩ : Shape))
    (hr : (⟨5, ![a, n, c, h, w]⟩ : Shape).Reduces [1] (⟨4, ![a, c, h, w]⟩ : Shape))
    (hu : 0 < (⟨0, ![]⟩ : Shape).numel) (p : Fin a) (q : Fin c) (r : Fin h) (s : Fin w) :
    Host.reduce FloatOps.maximumf v init h' hu (ix4 p q r s) = (Finset.univ : Finset (Fin n)).sup fun k => v (ix5 p k q r s) := by
  rw [Host.reduce_eq_fold_single FloatOps.maximumf v init h' hr hu, hinit]
  have hf : (v ∘ hr.lift (ix4 p q r s)) = fun k : Fin n => v (ix5 p k q r s) :=
    funext fun k => congrArg v (lift_ax1 hr p q r s k)
  exact congrArg (fun f => Finset.fold max (⊥ : EReal) f (Finset.univ : Finset (Fin n))) hf

end HostMaxAx1R5

end
-- ==== Proof.RefValue.lean ====
/-
  The reference program's result, read at one index, is the specification's `refEntry`.

  Output entry (b, c, h, w) of the reference is computed from the [2, 75, 16, 220, 220] array of logits
  z[b, p, c, h, w] = x[b, p, h, w] + k1[p, c] (and, for the second branch, −x[b, p, h, w] + k2[p, c]) by: multiplying by the
  constant one; taking the largest logit over the patch axis p (a maximum-reduction from −∞, then a maximum with −∞);
  subtracting it; exponentiating; summing the exponentials over p (an add-reduction from zero); dividing; multiplying by the
  logit; summing over p again. Each stage is read at the index (b, p, c, h, w) or (b, c, h, w): the broadcasts only re-index, the
  multiplication by one and the maximum with −∞ and the addition to zero change nothing, the maximum-reduction is the supremum
  over p and the add-reductions are sums over p. The two branch values and the broadcast bias are then added.

  The two [5, 5, 3, 16] → [75, 16] reshapes of k1 and k2 are kept as they are (`val_main_v0`, `val_main_v1`).
-/
import proofs.«157082_j4037269258264_2_alg».proof.Proof.LibHostMaxAx1R5
import proofs.«157082_j4037269258264_2_alg».proof.Proof.Spec
import proofs.«157082_j4037269258264_2_alg».proof.Proof.Gen.ReferenceIdeal.Read
import Idealize.ShloMosaic.Lib.ValueIdx
import Idealize.ShloMosaic.Lib.Pipeline.Value
import Idealize.ShloMosaic.PureOps.Ideal.Laws

noncomputable section

namespace Cert.Morph.RefValue

open Idealize.ShloMosaic Idealize.ShloMosaic.ValueIdx Cert.ReferenceIdeal Cert.ReferenceIdeal.Gen Cert.ReferenceIdeal.Read

/-- The f32 pattern 0x3F800000 denotes the number one. -/
theorem ofBits_one_f32 : Ideal.ofBits .f32 0x3F800000#32 = (1 : EReal) := by
  simp [Ideal.ofBits, Ideal.ieee, -EReal.coe_mul]; norm_num

/-- The shape fact the reduction's coordinates are read through. -/
theorem reduces_d1 : S2x75x16x220x220.Reduces [1] S2x16x220x220 := by decide

/-! ## The branch at +x -/

/-- The logits: entry (b, p, c, h, w) of the broadcast sum is x[b, p, h, w] + k1[p, c]. -/
theorem logit1 (x0 : (⟨S2x75x220x220, .f32⟩ : BufTy).Contents (Elt Ideal)) (x1 : (⟨S5x5x3x16, .f32⟩ : BufTy).Contents (Elt Ideal))
    (b : Fin 2) (p : Fin 75) (c : Fin 16) (h w : Fin 220) :
    val_main_v6 (F := Ideal) x0 x1 (ix5 b p c h w) = x0 (ix4 b p h w) + val_main_v0 (F := Ideal) x1 (ix2 p c) := by
  rw [val_main_v6_apply, val_main_v4_apply, val_main_v2_apply, val_main_v5_apply, val_main_v3_apply]
  have e1 : idx_main_v2 (idx_main_v4 (ix5 b p c h w)) = ix4 b p h w := by
    funext a; apply Fin.ext; match a with | ⟨0, _⟩ => rfl | ⟨1, _⟩ => rfl | ⟨2, _⟩ => rfl | ⟨3, _⟩ => rfl
  have e2 : idx_main_v3 (idx_main_v5 (ix5 b p c h w)) = ix2 p c := by
    funext a; apply Fin.ext; match a with | ⟨0, _⟩ => rfl | ⟨1, _⟩ => rfl
  rw [e1, e2]; rfl

/-- The multiplication by the constant one changes nothing. -/
theorem scaled1 (x0 : (⟨S2x75x220x220, .f32⟩ : BufTy).Contents (Elt Ideal)) (x1 : (⟨S5x5x3x16, .f32⟩ : BufTy).Contents (Elt Ideal))
    (j : S2x75x16x220x220.Idx) :
    val_main_v8 (F := Ideal) x0 x1 j = val_main_v6 (F := Ideal) x0 x1 j := by
  rw [val_main_v8_apply, val_main_v7_apply, val_main_cst_apply]
  show Ideal.ofBits .f32 0x3F800000#32 * _ = _
  rw [ofBits_one_f32, one_mul]

/-- The largest logit: the maximum-reduction from −∞ over the patch axis is the supremum of the 75 logits. -/
theorem max1 (x0 : (⟨S2x75x220x220, .f32⟩ : BufTy).Contents (Elt Ideal)) (x1 : (⟨S5x5x3x16, .f32⟩ : BufTy).Contents (Elt Ideal))
    (b : Fin 2) (c : Fin 16) (h w : Fin 220) :
    val_main_v9 (F := Ideal) x0 x1 (ix4 b c h w)
      = Finset.univ.sup fun q : Fin 75 => x0 (ix4 b q h w) + val_main_v0 (F := Ideal) x1 (ix2 q c) := by
  unfold val_main_v9
  refine (HostMaxAx1R5.reduce_ax1 (val_main_v8 (F := Ideal) x0 x1) (val_main_cst_0 (F := Ideal))
    (fun _ => HostMaxAx1R5.ofBits_neg_inf_f32) reducesTo_S2x75x16x220x220_S2x16x220x220_d1 reduces_d1 h_S_ b c h w).trans ?_
  simp only [scaled1, logit1]

/-- Taking the maximum with −∞ changes nothing, and the two broadcasts put the largest logit at every patch position. -/
theorem shift1 (x0 : (⟨S2x75x220x220, .f32⟩ : BufTy).Contents (Elt Ideal)) (x1 : (⟨S5x5x3x16, .f32⟩ : BufTy).Contents (Elt Ideal))
    (b : Fin 2) (p : Fin 75) (c : Fin 16) (h w : Fin 220) :
    val_main_v13 (F := Ideal) x0 x1 (ix5 b p c h w) = val_main_v9 (F := Ideal) x0 x1 (ix4 b c h w) := by
  rw [val_main_v13_apply, val_main_v12_apply, val_main_v11_apply, val_main_v10_apply, val_main_cst_1_apply]
  have e : idx_main_v12 (idx_main_v13 (ix5 b p c h w)) = ix4 b c h w := by
    funext a; apply Fin.ext; match a with | ⟨0, _⟩ => rfl | ⟨1, _⟩ => rfl | ⟨2, _⟩ => rfl | ⟨3, _⟩ => rfl
  rw [e]
  show max (Ideal.ofBits .f32 0xFF800000#32) _ = _
  rw [HostMaxAx1R5.ofBits_neg_inf_f32]
  exact max_bot_left _

/-- The exponentials of the shifted logits. -/
theorem expo1 (x0 : (⟨S2x75x220x220, .f32⟩ : BufTy).Contents (Elt Ideal)) (x1 : (⟨S5x5x3x16, .f32⟩ : BufTy).Contents (Elt Ideal))
    (b : Fin 2) (p : Fin 75) (c : Fin 16) (h w : Fin 220) :
    val_main_v15 (F := Ideal) x0 x1 (ix5 b p c h w)
      = Ideal.exp ((x0 (ix4 b p h w) + val_main_v0 (F := Ideal) x1 (ix2 p c))
          - Finset.univ.sup fun q : Fin 75 => x0 (ix4 b q h w) + val_main_v0 (F := Ideal) x1 (ix2 q c)) := by
  rw [val_main_v15_apply, val_main_v14_apply, shift1, max1, scaled1, logit1]
  rfl

/-- The sum of the exponentials: the add-reduction from zero over the patch axis. -/
theorem sum1 (x0 : (⟨S2x75x220x220, .f32⟩ : BufTy).Contents (Elt Ideal)) (x1 : (⟨S5x5x3x16, .f32⟩ : BufTy).Contents (Elt Ideal))
    (b : Fin 2) (c : Fin 16) (h w : Fin 220) :
    val_main_v16 (F := Ideal) x0 x1 (ix4 b c h w) = ∑ q : Fin 75, val_main_v15 (F := Ideal) x0 x1 (ix5 b q c h w) := by
  rw [val_main_v16_apply, val_main_cst_2_apply]
  show Ideal.ofBits .f32 0x00000000#32 + _ = _
  rw [Ideal.ofBits_zero_f32, zero_add]
  refine Finset.sum_congr rfl fun k _ => congrArg _ ?_
  funext a; apply Fin.ext; match a with | ⟨0, _⟩ => rfl | ⟨1, _⟩ => rfl | ⟨2, _⟩ => rfl | ⟨3, _⟩ => rfl | ⟨4, _⟩ => rfl

/-- The two broadcasts put the sum of the exponentials at every patch position. -/
theorem denom1 (x0 : (⟨S2x75x220x220, .f32⟩ : BufTy).Contents (Elt Ideal)) (x1 : (⟨S5x5x3x16, .f32⟩ : BufTy).Contents (Elt Ideal))
    (b : Fin 2) (p : Fin 75) (c : Fin 16) (h w : Fin 220) :
    val_main_v18 (F := Ideal) x0 x1 (ix5 b p c h w) = val_main_v16 (F := Ideal) x0 x1 (ix4 b c h w) := by
  rw [val_main_v18_apply, val_main_v17_apply]
  refine congrArg _ ?_
  funext a; apply Fin.ext; match a with | ⟨0, _⟩ => rfl | ⟨1, _⟩ => rfl | ⟨2, _⟩ => rfl | ⟨3, _⟩ => rfl

/-- The softmax weight times the logit. -/
theorem term1 (x0 : (⟨S2x75x220x220, .f32⟩ : BufTy).Contents (Elt Ideal)) (x1 : (⟨S5x5x3x16, .f32⟩ : BufTy).Contents (Elt Ideal))
    (b : Fin 2) (p : Fin 75) (c : Fin 16) (h w : Fin 220) :
    val_main_v20 (F := Ideal) x0 x1 (ix5 b p c h w)
      = Ideal.div (val_main_v15 (F := Ideal) x0 x1 (ix5 b p c h w)) (∑ q : Fin 75, val_main_v15 (F := Ideal) x0 x1 (ix5 b q c h w))
          * (x0 (ix4 b p h w) + val_main_v0 (F := Ideal) x1 (ix2 p c)) := by
  rw [val_main_v20_apply, val_main_v19_apply, denom1, sum1, logit1]
  rfl

/-- The branch at +x is the smooth maximum of the logits x + k1. -/
theorem branch1 (x0 : (⟨S2x75x220x220, .f32⟩ : BufTy).Contents (Elt Ideal)) (x1 : (⟨S5x5x3x16, .f32⟩ : BufTy).Contents (Elt Ideal))
    (b : Fin 2) (c : Fin 16) (h w : Fin 220) :
    val_main_v21 (F := Ideal) x0 x1 (ix4 b c h w)
      = Cert.Morph.refBranch (fun p : Fin 75 => x0 (ix4 b p h w) + val_main_v0 (F := Ideal) x1 (ix2 p c)) := by
  rw [val_main_v21_apply, val_main_cst_3_apply]
  show Ideal.ofBits .f32 0x00000000#32 + _ = _
  rw [Ideal.ofBits_zero_f32, zero_add]
  unfold Cert.Morph.refBranch
  refine Finset.sum_congr rfl fun k _ => ?_
  have e : idx_main_v21 (ix4 b c h w) k = ix5 b k c h w := by
    funext a; apply Fin.ext; match a with | ⟨0, _⟩ => rfl | ⟨1, _⟩ => rfl | ⟨2, _⟩ => rfl | ⟨3, _⟩ => rfl | ⟨4, _⟩ => rfl
  rw [e, term1]
  simp only [expo1]

/-! ## The branch at −x -/

/-- The logits: entry (b, p, c, h, w) of the broadcast sum is −x[b, p, h, w] + k2[p, c]. -/
theorem logit2 (x0 : (⟨S2x75x220x220, .f32⟩ : BufTy).Contents (Elt Ideal)) (x2 : (⟨S5x5x3x16, .f32⟩ : BufTy).Contents (Elt Ideal))
    (b : Fin 2) (p : Fin 75) (c : Fin 16) (h w : Fin 220) :
    val_main_v27 (F := Ideal) x0 x2 (ix5 b p c h w) = -x0 (ix4 b p h w) + val_main_v1 (F := Ideal) x2 (ix2 p c) := by
  rw [val_main_v27_apply, val_main_v25_apply, val_main_v23_apply, val_main_v22_apply, val_main_v26_apply, val_main_v24_apply]
  have e1 : idx_main_v23 (idx_main_v25 (ix5 b p c h w)) = ix4 b p h w := by
    funext a; apply Fin.ext; match a with | ⟨0, _⟩ => rfl | ⟨1, _⟩ => rfl | ⟨2, _⟩ => rfl | ⟨3, _⟩ => rfl
  have e2 : idx_main_v24 (idx_main_v26 (ix5 b p c h w)) = ix2 p c := by
    funext a; apply Fin.ext; match a with | ⟨0, _⟩ => rfl | ⟨1, _⟩ => rfl
  rw [e1, e2]; rfl

/-- The multiplication by the constant one changes nothing. -/
theorem scaled2 (x0 : (⟨S2x75x220x220, .f32⟩ : BufTy).Contents (Elt Ideal)) (x2 : (⟨S5x5x3x16, .f32⟩ : BufTy).Contents (Elt Ideal))
    (j : S2x75x16x220x220.Idx) :
    val_main_v29 (F := Ideal) x0 x2 j = val_main_v27 (F := Ideal) x0 x2 j := by
  rw [val_main_v29_apply, val_main_v28_apply, val_main_cst_4_apply]
  show Ideal.ofBits .f32 0x3F800000#32 * _ = _
  rw [ofBits_one_f32, one_mul]

/-- The largest logit: the maximum-reduction from −∞ over the patch axis is the supremum of the 75 logits. -/
theorem max2 (x0 : (⟨S2x75x220x220, .f32⟩ : BufTy).Contents (Elt Ideal)) (x2 : (⟨S5x5x3x16, .f32⟩ : BufTy).Contents (Elt Ideal))
    (b : Fin 2) (c : Fin 16) (h w : Fin 220) :
    val_main_v30 (F := Ideal) x0 x2 (ix4 b c h w)
      = Finset.univ.sup fun q : Fin 75 => -x0 (ix4 b q h w) + val_main_v1 (F := Ideal) x2 (ix2 q c) := by
  unfold val_main_v30
  refine (HostMaxAx1R5.reduce_ax1 (val_main_v29 (F := Ideal) x0 x2) (val_main_cst_5 (F := Ideal))
    (fun _ => HostMaxAx1R5.ofBits_neg_inf_f32) reducesTo_S2x75x16x220x220_S2x16x220x220_d1 reduces_d1 h_S_ b c h w).trans ?_
  simp only [scaled2, logit2]

/-- Taking the maximum with −∞ changes nothing, and the two broadcasts put the largest logit at every patch position. -/
theorem shift2 (x0 : (⟨S2x75x220x220, .f32⟩ : BufTy).Contents (Elt Ideal)) (x2 : (⟨S5x5x3x16, .f32⟩ : BufTy).Contents (Elt Ideal))
    (b : Fin 2) (p : Fin 75) (c : Fin 16) (h w : Fin 220) :
    val_main_v34 (F := Ideal) x0 x2 (ix5 b p c h w) = val_main_v30 (F := Ideal) x0 x2 (ix4 b c h w) := by
  rw [val_main_v34_apply, val_main_v33_apply, val_main_v32_apply, val_main_v31_apply, val_main_cst_6_apply]
  have e : idx_main_v33 (idx_main_v34 (ix5 b p c h w)) = ix4 b c h w := by
    funext a; apply Fin.ext; match a with | ⟨0, _⟩ => rfl | ⟨1, _⟩ => rfl | ⟨2, _⟩ => rfl | ⟨3, _⟩ => rfl
  rw [e]
  show max (Ideal.ofBits .f32 0xFF800000#32) _ = _
  rw [HostMaxAx1R5.ofBits_neg_inf_f32]
  exact max_bot_left _

/-- The exponentials of the shifted logits. -/
theorem expo2 (x0 : (⟨S2x75x220x220, .f32⟩ : BufTy).Contents (Elt Ideal)) (x2 : (⟨S5x5x3x16, .f32⟩ : BufTy).Contents (Elt Ideal))
    (b : Fin 2) (p : Fin 75) (c : Fin 16) (h w : Fin 220) :
    val_main_v36 (F := Ideal) x0 x2 (ix5 b p c h w)
      = Ideal.exp ((-x0 (ix4 b p h w) + val_main_v1 (F := Ideal) x2 (ix2 p c))
          - Finset.univ.sup fun q : Fin 75 => -x0 (ix4 b q h w) + val_main_v1 (F := Ideal) x2 (ix2 q c)) := by
  rw [val_main_v36_apply, val_main_v35_apply, shift2, max2, scaled2, logit2]
  rfl

/-- The sum of the exponentials: the add-reduction from zero over the patch axis. -/
theorem sum2 (x0 : (⟨S2x75x220x220, .f32⟩ : BufTy).Contents (Elt Ideal)) (x2 : (⟨S5x5x3x16, .f32⟩ : BufTy).Contents (Elt Ideal))
    (b : Fin 2) (c : Fin 16) (h w : Fin 220) :
    val_main_v37 (F := Ideal) x0 x2 (ix4 b c h w) = ∑ q : Fin 75, val_main_v36 (F := Ideal) x0 x2 (ix5 b q c h w) := by
  rw [val_main_v37_apply, val_main_cst_7_apply]
  show Ideal.ofBits .f32 0x00000000#32 + _ = _
  rw [Ideal.ofBits_zero_f32, zero_add]
  refine Finset.sum_congr rfl fun k _ => congrArg _ ?_
  funext a; apply Fin.ext; match a with | ⟨0, _⟩ => rfl | ⟨1, _⟩ => rfl | ⟨2, _⟩ => rfl | ⟨3, _⟩ => rfl | ⟨4, _⟩ => rfl

/-- The two broadcasts put the sum of the exponentials at every patch position. -/
theorem denom2 (x0 : (⟨S2x75x220x220, .f32⟩ : BufTy).Contents (Elt Ideal)) (x2 : (⟨S5x5x3x16, .f32⟩ : BufTy).Contents (Elt Ideal))
    (b : Fin 2) (p : Fin 75) (c : Fin 16) (h w : Fin 220) :
    val_main_v39 (F := Ideal) x0 x2 (ix5 b p c h w) = val_main_v37 (F := Ideal) x0 x2 (ix4 b c h w) := by
  rw [val_main_v39_apply, val_main_v38_apply]
  refine congrArg _ ?_
  funext a; apply Fin.ext; match a with | ⟨0, _⟩ => rfl | ⟨1, _⟩ => rfl | ⟨2, _⟩ => rfl | ⟨3, _⟩ => rfl

/-- The softmax weight times the logit. -/
theorem term2 (x0 : (⟨S2x75x220x220, .f32⟩ : BufTy).Contents (Elt Ideal)) (x2 : (⟨S5x5x3x16, .f32⟩ : BufTy).Contents (Elt Ideal))
    (b : Fin 2) (p : Fin 75) (c : Fin 16) (h w : Fin 220) :
    val_main_v41 (F := Ideal) x0 x2 (ix5 b p c h w)
      = Ideal.div (val_main_v36 (F := Ideal) x0 x2 (ix5 b p c h w)) (∑ q : Fin 75, val_main_v36 (F := Ideal) x0 x2 (ix5 b q c h w))
          * (-x0 (ix4 b p h w) + val_main_v1 (F := Ideal) x2 (ix2 p c)) := by
  rw [val_main_v41_apply, val_main_v40_apply, denom2, sum2, logit2]
  rfl

/-- The branch at −x is the smooth maximum of the logits −x + k2. -/
theorem branch2 (x0 : (⟨S2x75x220x220, .f32⟩ : BufTy).Contents (Elt Ideal)) (x2 : (⟨S5x5x3x16, .f32⟩ : BufTy).Contents (Elt Ideal))
    (b : Fin 2) (c : Fin 16) (h w : Fin 220) :
    val_main_v42 (F := Ideal) x0 x2 (ix4 b c h w)
      = Cert.Morph.refBranch (fun p : Fin 75 => -x0 (ix4 b p h w) + val_main_v1 (F := Ideal) x2 (ix2 p c)) := by
  rw [val_main_v42_apply, val_main_cst_8_apply]
  show Ideal.ofBits .f32 0x00000000#32 + _ = _
  rw [Ideal.ofBits_zero_f32, zero_add]
  unfold Cert.Morph.refBranch
  refine Finset.sum_congr rfl fun k _ => ?_
  have e : idx_main_v42 (ix4 b c h w) k = ix5 b k c h w := by
    funext a; apply Fin.ext; match a with | ⟨0, _⟩ => rfl | ⟨1, _⟩ => rfl | ⟨2, _⟩ => rfl | ⟨3, _⟩ => rfl | ⟨4, _⟩ => rfl
  rw [e, term2]
  simp only [expo2]

/-! ## The result -/

/-- Entry (b, c, h, w) of the reference's result is `refEntry` of the 75 patch values x[b, ·, h, w], column c of the two reshaped
    kernels, and the bias at c. -/
theorem ref_apply (x0 : (⟨S2x75x220x220, .f32⟩ : BufTy).Contents (Elt Ideal)) (x1 x2 : (⟨S5x5x3x16, .f32⟩ : BufTy).Contents (Elt Ideal))
    (x3 : (⟨S16, .f32⟩ : BufTy).Contents (Elt Ideal)) (b : Fin 2) (c : Fin 16) (h w : Fin 220) :
    Cert.ReferenceIdeal.Read.val_main_v46 (F := Ideal) x0 x1 x2 x3 (ValueIdx.ix4 b c h w)
      = Cert.Morph.refEntry (fun p : Fin 75 => x0 (ValueIdx.ix4 b p h w))
          (fun p : Fin 75 => Cert.ReferenceIdeal.Read.val_main_v0 (F := Ideal) x1 (ValueIdx.ix2 p c))
          (fun p : Fin 75 => Cert.ReferenceIdeal.Read.val_main_v1 (F := Ideal) x2 (ValueIdx.ix2 p c))
          (x3 (ValueIdx.ix1 c)) := by
  rw [val_main_v46_apply, val_main_v43_apply, val_main_v45_apply, val_main_v44_apply, branch1, branch2]
  have e : idx_main_v44 (idx_main_v45 (ix4 b c h w)) = ix1 c := by
    funext a; apply Fin.ext; match a with | ⟨0, _⟩ => rfl
  rw [e]
  rfl

end Cert.Morph.RefValue

end
-- ==== Proof.Bridge.lean ====
/-
  The bridge between the two sides of the value claim.

  `entry_eq`: on finite (real) inputs, the kernel's entry function `kernelEntry` at the 75 patch values x[b, ·, h, w], column c of
  the two reshaped kernels and the bias at c, is the reference program's result at (b, c, h, w). The inputs being real, the three
  families and the bias are coercions of reals; there the two entry functions agree, and the reference's result at the index is the
  reference's entry function.

  `frame_ri`, `ref_run`: the reference program runs, its arguments end unchanged, and its result buffer ends at the composed
  stages `val_main_v46` of the launch contents of the four arguments.
-/
import proofs.«157082_j4037269258264_2_alg».proof.Defs
import proofs.«157082_j4037269258264_2_alg».proof.Proof.Spec
import proofs.«157082_j4037269258264_2_alg».proof.Proof.Algebra
import proofs.«157082_j4037269258264_2_alg».proof.Proof.Finite
import proofs.«157082_j4037269258264_2_alg».proof.Proof.RefValue
import proofs.«157082_j4037269258264_2_alg».proof.Proof.Gen.ReferenceIdeal
import proofs.«157082_j4037269258264_2_alg».proof.Proof.Gen.Pre_finite_inputs
import proofs.«157082_j4037269258264_2_alg».proof.Proof.Gen.ReferenceIdeal.Run
import proofs.«157082_j4037269258264_2_alg».proof.Proof.Gen.ReferenceIdeal.Read

noncomputable section

namespace Cert.Morph.Bridge

open Idealize.ShloMosaic Idealize.ShloMosaic.TcCoe Idealize.SL.Sem Idealize.ShloMosaic.ValueIdx
open Cert.ReferenceIdeal Cert.ReferenceIdeal.Gen Cert.ReferenceIdeal.Read

/-- On real inputs the kernel's entry function, at the patch values, the kernels' columns and the bias of an output position, is the
    reference program's result at that position. -/
theorem entry_eq (X : (⟨S2x75x220x220, .f32⟩ : BufTy).Contents (Elt Ideal)) (A1 A2 : (⟨S5x5x3x16, .f32⟩ : BufTy).Contents (Elt Ideal))
    (B : (⟨S16, .f32⟩ : BufTy).Contents (Elt Ideal))
    (h0 : ∀ i, ∃ r : ℝ, X i = (r : EReal)) (h1 : ∀ i, ∃ r : ℝ, A1 i = (r : EReal)) (h2 : ∀ i, ∃ r : ℝ, A2 i = (r : EReal))
    (h3 : ∀ i, ∃ r : ℝ, B i = (r : EReal)) (b : Fin 2) (co : Fin 16) (h w : Fin 220) :
    Cert.Morph.kernelEntry (fun p : Fin 75 => X (ValueIdx.ix4 b p h w))
        (fun p : Fin 75 => Cert.ReferenceIdeal.Read.val_main_v0 (F := Ideal) A1 (ValueIdx.ix2 p co))
        (fun p : Fin 75 => Cert.ReferenceIdeal.Read.val_main_v1 (F := Ideal) A2 (ValueIdx.ix2 p co)) (B (ValueIdx.ix1 co))
      = Cert.ReferenceIdeal.Read.val_main_v46 (F := Ideal) X A1 A2 B (ValueIdx.ix4 b co h w) := by
  choose x hx using h0
  choose a1 ha1 using h1
  choose a2 ha2 using h2
  choose bb hb using h3
  rw [Cert.Morph.RefValue.ref_apply]
  have eX : (fun p : Fin 75 => X (ix4 b p h w)) = fun p => ((x (ix4 b p h w) : ℝ) : EReal) := funext fun p => hx _
  have e1 : (fun p : Fin 75 => val_main_v0 (F := Ideal) A1 (ix2 p co)) = fun p => ((a1 (idx_main_v0 (ix2 p co)) : ℝ) : EReal) :=
    funext fun p => (val_main_v0_apply A1 _).trans (ha1 _)
  have e2 : (fun p : Fin 75 => val_main_v1 (F := Ideal) A2 (ix2 p co)) = fun p => ((a2 (idx_main_v1 (ix2 p co)) : ℝ) : EReal) :=
    funext fun p => (val_main_v1_apply A2 _).trans (ha2 _)
  rw [eX, e1, e2, hb]
  exact Cert.Morph.kernelEntry_eq_refEntry _ _ _ _

/-- The reference program runs and its argument arrays end unchanged. -/
theorem frame_ri : Cert.frame_ReferenceIdeal := fun m ρ _ =>
  (θ_run Cert.ReferenceIdeal.defs _ _).mono (fun _ h c => (h c).2) (Cert.ReferenceIdeal.Value.run (F := Ideal) m ρ)

/-- The reference program runs, its result buffer ends at the composed stages of the arguments' launch contents, and its argument
    arrays end unchanged. -/
theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD,
        r.2.mem ((c.tc : Thread Cert.ReferenceIdeal.nD Cert.ReferenceIdeal.τ).loc Cert.ReferenceIdeal.main_v46)
            = Cert.ReferenceIdeal.Read.val_main_v46 (F := Ideal)
                (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg1))
                (m' ((c.tc : Thread Cert.ReferenceIdeal.nD Cert.ReferenceIdeal.τ).loc Cert.ReferenceIdeal.main_arg2))
                (m' ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  (θ_run Cert.ReferenceIdeal.defs _ _).mono
    (fun _ h c => ⟨(h c).1.trans (Cert.ReferenceIdeal.Read.val_main_v46_eq (F := Ideal) m' c), (h c).2⟩)
    (Cert.ReferenceIdeal.Value.run (F := Ideal) m' g')

end Cert.Morph.Bridge

end
-- ==== Proof.lean ====
/-
  The certificate's five claims.

  The kernel evaluates, for each output entry, two smooth maxima Σ_p softmax(z)_p · z_p — at z = x + k1 and at z = −x + k2 — plus a bias,
  each as ONE quotient of two 75-term sums against tables exp k and k · exp k computed once on the host; the reference shifts the logits
  by their maximum and divides each softmax weight separately.  Over the reals the two are the same number, exp (x + k) = exp x · exp k
  and the shift cancelling between numerator and denominator; over the extended reals that needs every input finite, which is the
  precondition.  The frames: each program runs to the end, faults nowhere, and leaves its four argument arrays as launched.
-/
import proofs.«157082_j4037269258264_2_alg».proof.Defs
import proofs.«157082_j4037269258264_2_alg».proof.Proof.Gen.Kernel
import proofs.«157082_j4037269258264_2_alg».proof.Proof.Gen.Kernel.Skeleton
import proofs.«157082_j4037269258264_2_alg».proof.Proof.Gen.Kernel.Launch
import proofs.«157082_j4037269258264_2_alg».proof.Proof.Gen.Kernel.Points
import proofs.«157082_j4037269258264_2_alg».proof.Proof.Gen.Kernel.Frame
import proofs.«157082_j4037269258264_2_alg».proof.Proof.Gen.KernelIdeal
import proofs.«157082_j4037269258264_2_alg».proof.Proof.Gen.KernelIdeal.Skeleton
import proofs.«157082_j4037269258264_2_alg».proof.Proof.Gen.KernelIdeal.Launch
import proofs.«157082_j4037269258264_2_alg».proof.Proof.Gen.KernelIdeal.Points
import proofs.«157082_j4037269258264_2_alg».proof.Proof.Gen.KernelIdeal.Frame
import proofs.«157082_j4037269258264_2_alg».proof.Proof.Gen.ReferenceIdeal
import proofs.«157082_j4037269258264_2_alg».proof.Proof.Gen.Pre_finite_inputs
import proofs.«157082_j4037269258264_2_alg».proof.Proof.Gen.ReferenceIdeal.Run
import proofs.«157082_j4037269258264_2_alg».proof.Proof.Gen.ReferenceIdeal.Read
import proofs.«157082_j4037269258264_2_alg».proof.Proof.FrameBits
import proofs.«157082_j4037269258264_2_alg».proof.Proof.FrameIdeal
import proofs.«157082_j4037269258264_2_alg».proof.Proof.HostGlue
import proofs.«157082_j4037269258264_2_alg».proof.Proof.Bridge
import proofs.«157082_j4037269258264_2_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel's frame: the result's contents play no part in it. -/
theorem frame_p : Cert.frame_Kernel := Cert.Kernel.Run.frame

/-- The idealized kernel's frame. -/
theorem frame_pi : Cert.frame_KernelIdeal := fun m ρ _ => Cert.KernelIdeal.Run.frame m ρ

/-- The reference's frame: its run with the result dropped. -/
theorem frame_ri : Cert.frame_ReferenceIdeal := Cert.Morph.Bridge.frame_ri

/-- The idealization rewrote nothing. -/
theorem preserves : Cert.preserves_Kernel_KernelIdeal := trivial

/-- The idealized kernel's run leaves the four argument arrays as launched: three are buffers the pipeline never stages, untouched by
    the line after the region; the biases' array is an input window's. -/
theorem kept_args (m : (ℓ : Loc Cert.KernelIdeal.nD Cert.KernelIdeal.τ Cert.KernelIdeal.sig) → Buf (Elt Ideal) ℓ)
    (r : PUnit × MemSt Cert.KernelIdeal.nD Cert.KernelIdeal.τ Cert.KernelIdeal.sig (Elt Ideal))
    (h : Pipeline.FramePost Cert.KernelIdeal.cfgs (Cert.KernelIdeal.Run.dats m) 0
      (Pipeline.afterTail₀ Cert.KernelIdeal.cfgs (Cert.KernelIdeal.Run.dats m) 0 (Cert.KernelIdeal.Gen.V0 m) [Cert.KernelIdeal.Gen.hostOps1]) r)
    (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3) :=
  ⟨((h c).2 Cert.KernelIdeal.main_arg0 (Pipeline.mem_restRefs_of Cert.KernelIdeal.main_arg0 (by decide) (by decide))).trans
      (Cert.KernelIdeal.Gen.W_main_arg0 m (Cert.KernelIdeal.Run.dats m) c),
    ((h c).2 Cert.KernelIdeal.main_arg1 (Pipeline.mem_restRefs_of Cert.KernelIdeal.main_arg1 (by decide) (by decide))).trans
      (Cert.KernelIdeal.Gen.W_main_arg1 m (Cert.KernelIdeal.Run.dats m) c),
    ((h c).2 Cert.KernelIdeal.main_arg2 (Pipeline.mem_restRefs_of Cert.KernelIdeal.main_arg2 (by decide) (by decide))).trans
      (Cert.KernelIdeal.Gen.W_main_arg2 m (Cert.KernelIdeal.Run.dats m) c),
    ((h c).1 5).trans (((Cert.KernelIdeal.Run.dats m 0 c).arrAt_in 5 rfl _).trans
      ((Cert.KernelIdeal.Run.A_eq m c 5).trans (Cert.KernelIdeal.Gen.V_main_arg3 m c)))⟩

/-- Both programs end with the same result: the reference's result term of the kernel's argument arrays.  The kernel's result is
    the reshape of its call's result array, whose entry (b, c, 220·h + w) is the kernel's two quotients plus the bias at the patch
    x[b, ·, h, w]; with every input a real that is the reference's entry (b, c, h, w). -/
theorem algebraic : Cert.algebraic_KernelIdeal_ReferenceIdeal := by
  intro m ρ m' ρ' hpre hagree
  refine ⟨fun c => Cert.ReferenceIdeal.Read.val_main_v46 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · -- the kernel
    refine (θ_run Cert.KernelIdeal.defs _ _).mono (fun r h c => ⟨?_, ?_⟩) (Cert.KernelIdeal.Run.run_main m ρ)
    · obtain ⟨h0, h1, h2, h3⟩ := Cert.Morph.real_of_pre _ _ _ _ (hpre c)
      refine ((h c).2 Cert.KernelIdeal.main_v12 (Pipeline.mem_restRefs_of Cert.KernelIdeal.main_v12 (by decide) (by decide))).trans ?_
      funext i
      obtain ⟨b, co, y, x, rfl⟩ : ∃ (b : Fin 2) (co : Fin 16) (y x : Fin 220), i = ix4 b co y x := ⟨i 0, i 1, i 2, i 3, eq_ix4 i⟩
      refine (Cert.KernelIdeal.Glue.kernel_entry m c (Cert.KernelIdeal.Run.dats m) (Cert.KernelIdeal.Run.final6 m c) b co y x).trans ?_
      exact Cert.Morph.Bridge.entry_eq _ _ _ _ h0 h1 h2 h3 b co y x
    · exact kept_args m r h c
  · -- the reference
    refine (θ_run Cert.ReferenceIdeal.defs _ _).mono (fun r h c => ⟨?_, (h c).2⟩) (Cert.Morph.Bridge.ref_run m' ρ')
    rw [(h c).1, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
